-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "eight_eps_sq" .f32 0x2D0CBCCC#32 ((77371252064649 / 9671406556917033397649408 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S4096 : Shape := ⟨1, ![4096]⟩
abbrev S1 : Shape := ⟨1, ![1]⟩
abbrev S8x8192 : Shape := ⟨2, ![8, 8192]⟩
abbrev S8192x8 : Shape := ⟨2, ![8192, 8]⟩
abbrev S4096x8 : Shape := ⟨2, ![4096, 8]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_
  bcast_S_S8x8192 : S_.BroadcastsInDim S8x8192 (![] : Fin 0 → Fin S8x8192.rank)
  reducesTo_S8x8192_S_d0_1 : S8x8192.ReducesTo [0, 1] S_
  bcast_S_S8192x8 : S_.BroadcastsInDim S8192x8 (![] : Fin 0 → Fin S8192x8.rank)
  reducesTo_S8192x8_S_d0_1 : S8192x8.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S8192x8 .f32) (main_arg6 : FVec F S8192x8 .f32) (main_arg7 : FVec F S4096x8 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8192x8 .f32 := Host.absf main_arg5
  let main_cst_6 : FVec F S_ .f32 := constant S_ .f32 0x7F800000#32
  let main_v20 : FVec F S8192x8 .f32 := broadcastInDim S8192x8 ![] bcast_S_S8192x8 main_cst_6
  let main_v21 : IVec S8192x8 1 := cmpf .olt main_v19 main_v20
  let main_c_7 : IVec S_ 1 := constantI S_ 1 1#1
  let main_v22 : IVec S_ 1 := (fun x v => Host.reduce IntOp.andi x v reducesTo_S8192x8_S_d0_1 h_S_) main_v21 main_c_7
  let main_v23 : IVec S_ 1 := andi main_v18 main_v22
  let main_v24 : FVec F S8192x8 .f32 := Host.absf main_arg6
  let main_cst_8 : FVec F S_ .f32 := constant S_ .f32 0x7F800000#32
  let main_v25 : FVec F S8192x8 .f32 := broadcastInDim S8192x8 ![] bcast_S_S8192x8 main_cst_8
  let main_v26 : IVec S8192x8 1 := cmpf .olt main_v24 main_v25
  let main_c_9 : IVec S_ 1 := constantI S_ 1 1#1
  let main_v27 : IVec S_ 1 := (fun x v => Host.reduce IntOp.andi x v reducesTo_S8192x8_S_d0_1 h_S_) main_v26 main_c_9
  let main_v28 : IVec S_ 1 := andi main_v23 main_v27
  let main_v29 : FVec F S4096x8 .f32 := Host.absf main_arg7
  let main_cst_10 : FVec F S_ .f32 := constant S_ .f32 0x7F800000#32
  let main_v30 : FVec F S4096x8 .f32 := broadcastInDim S4096x8 ![] bcast_S_S4096x8 main_cst_10
  let main_v31 : IVec S4096x8 1 := cmpf .olt main_v29 main_v30
  let main_c_11 : IVec S_ 1 := constantI S_ 1 1#1
  let main_v32 : IVec S_ 1 := (fun x v => Host.reduce IntOp.andi x v reducesTo_S4096x8_S_d0_1 h_S_) main_v31 main_c_11
  let main_v33 : IVec S_ 1 := andi main_v28 main_v32
  main_v33

def fn {F : FTy → Type} [FloatOps F] (main_arg0 : IVec S8192x4096 32) (main_arg1 : FVec F S8192 .f32) (main_arg2 : FVec F S4096 .f32) (main_arg3 : FVec F S1 .f32) (main_arg4 : FVec F S8x8192 .f32) (main_arg5 : FVec F S8192x8 .f32) (main_arg6 : FVec F S8192x8 .f32) (main_arg7 : FVec F S4096x8 .f32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8x8192 .f32 := Host.absf main_arg4
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg5 main_arg6 main_arg7 main_v13 main_v16
-- ==== Kernel.lean ====
abbrev S8192x4096 : Shape := ⟨2, ![8192, 4096]⟩
abbrev S8192 : Shape := ⟨1, ![8192]⟩
abbrev S4096 : Shape := ⟨1, ![4096]⟩
abbrev S1 : Shape := ⟨1, ![1]⟩
abbrev S8x8192 : Shape := ⟨2, ![8, 8192]⟩
abbrev S8192x8 : Shape := ⟨2, ![8192, 8]⟩
abbrev S4096x8 : Shape := ⟨2, ![4096, 8]⟩
abbrev S_ : Shape := ⟨0, ![]⟩
abbrev S8 : Shape := ⟨1, ![8]⟩
abbrev S8x1 : Shape := ⟨2, ![8, 1]⟩
abbrev S8192x1 : Shape := ⟨2, ![8192, 1]⟩
abbrev S8x8 : Shape := ⟨2, ![8, 8]⟩
abbrev S4096x1 : Shape := ⟨2, ![4096, 1]⟩
abbrev S1x4096 : Shape := ⟨2, ![1, 4096]⟩
abbrev S8192x11 : Shape := ⟨2, ![8192, 11]⟩
abbrev S8x4096 : Shape := ⟨2, ![8, 4096]⟩
abbrev S11x4096 : Shape := ⟨2, ![11, 4096]⟩
abbrev S1x1 : Shape := ⟨2, ![1, 1]⟩
abbrev S512x1024 : Shape := ⟨2, ![512, 1024]⟩
abbrev S512x11 : Shape := ⟨2, ![512, 11]⟩
abbrev S11x1024 : Shape := ⟨2, ![11, 1024]⟩
abbrev S512x8 : Shape := ⟨2, ![512, 8]⟩
abbrev S512x1 : Shape := ⟨2, ![512, 1]⟩
abbrev S8x1024 : Shape := ⟨2, ![8, 1024]⟩
abbrev S1x1024 : Shape := ⟨2, ![1, 1024]⟩
abbrev S512 : Shape := ⟨1, ![512]⟩

abbrev nBuf : Space → Nat
  | .hbm => 63
  | .vmem => 8
  | .smem => 0
  | _ => 0

abbrev bufTy : (tb : Table) → Fin (tcTables nBuf tb) → BufTy
  | .hbm, ⟨0, _⟩ => ⟨S8192x4096, .i32⟩
  | .hbm, ⟨1, _⟩ => ⟨S8192, .f32⟩
  | .hbm, ⟨2, _⟩ => ⟨S4096, .f32⟩
  | .hbm, ⟨3, _⟩ => ⟨S1, .f32⟩
  | .hbm, ⟨4, _⟩ => ⟨S8x8192, .f32⟩
  | .hbm, ⟨5, _⟩ => ⟨S8192x8, .f32⟩
  | .hbm, ⟨6, _⟩ => ⟨S8192x8, .f32⟩
  | .hbm, ⟨7, _⟩ => ⟨S4096x8, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8, .f32⟩
  | .hbm, ⟨35, _⟩ => ⟨S8192x8, .f32⟩
  | .hbm, ⟨36, _⟩ => ⟨S8x8, .f32⟩
  | .hbm, ⟨37, _⟩ => ⟨S8192x8, .f32⟩
  | .hbm, ⟨38, _⟩ => ⟨S4096x8, .f32⟩
  | .hbm, ⟨39, _⟩ => ⟨S8192x8, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S4096x8, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S8192x1, .f32⟩
  | .hbm, ⟨54, _⟩ => ⟨S1x4096, .f32⟩
  | .hbm, ⟨55, _⟩ => ⟨S8192x11, .f32⟩
  | .hbm, ⟨56, _⟩ => ⟨S8x4096, .f32⟩
  | .hbm, ⟨57, _⟩ => ⟨S1x4096, .f32⟩
  | .hbm, ⟨58, _⟩ => ⟨S1x4096, .f32⟩
  | .hbm, ⟨59, _⟩ => ⟨S11x4096, .f32⟩
  | .hbm, ⟨60, _⟩ => ⟨S1x1, .f32⟩
  | .hbm, ⟨61, _⟩ => ⟨S1x1, .f32⟩
  | .hbm, ⟨62, _⟩ => ⟨S_, .f32⟩
  | .local _ .vmem, ⟨0, _⟩ => ⟨S512x1024, .i32⟩
  | .local _ .vmem, ⟨1, _⟩ => ⟨S512x1024, .i32⟩
  | .local _ .vmem, ⟨2, _⟩ => ⟨S512x11, .f32⟩
  | .local _ .vmem, ⟨3, _⟩ => ⟨S512x11, .f32⟩
  | .local _ .vmem, ⟨4, _⟩ => ⟨S11x1024, .f32⟩
  | .local _ .vmem, ⟨5, _⟩ => ⟨S11x1024, .f32⟩
  | .local _ .vmem, ⟨6, _⟩ => ⟨S1x1, .f32⟩
  | .local _ .vmem, ⟨7, _⟩ => ⟨S1x1, .f32⟩
  | _, _ => ⟨S8192x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S11x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8x8192_S8_d1 : S8x8192.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x8192_0_1 : S8x1.BroadcastsInDim S8x8192 (![0, 1] : Fin 2 → Fin S8x8192.rank)
  reducesTo_S8192x8_S8192_d1 : S8192x8.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  reducesTo_S4096x8_S4096_d1 : S4096x8.ReducesTo [1] S4096
  bcast_S4096_S4096x1_0 : S4096.BroadcastsInDim S4096x1 (![0] : Fin 1 → Fin S4096x1.rank)
  shapeCasts_S8192_S8192x1 : S8192.ShapeCasts S8192x1
  shapeCasts_S4096_S1x4096 : S4096.ShapeCasts S1x4096
  concatenates_S8192x8_S8192x1_S8192x1_S8192x1_S8192x11_d1 : Shape.Concatenates [S8192x8, S8192x1, S8192x1, S8192x1] S8192x11 1
  transposes_S4096x8_S8x4096_1_0 : S4096x8.Transposes [1, 0] S8x4096
  transposes_S4096x1_S1x4096_1_0 : S4096x1.Transposes [1, 0] S1x4096
  concatenates_S8x4096_S1x4096_S1x4096_S1x4096_S11x4096_d0 : Shape.Concatenates [S8x4096, S1x4096, S1x4096, S1x4096] S11x4096 0
  shapeCasts_S1_S1x1 : S1.ShapeCasts S1x1
  inb_S1x1_S1x1_0_0 : ∀ a, (![0, 0] : Fin 2 → Nat) a + S1x1.size a ≤ S1x1.size a
  h_S1x1 : 0 < S1x1.numel
  inb_S512x11_S512x11_0_0 : ∀ a, (![0, 0] : Fin 2 → Nat) a + S512x11.size a ≤ S512x11.size a
  h_S512x11 : 0 < S512x11.numel
  shapeCasts_S512x11_S512x11 : S512x11.ShapeCasts S512x11
  inb_S11x1024_S11x1024_0_0 : ∀ a, (![0, 0] : Fin 2 → Nat) a + S11x1024.size a ≤ S11x1024.size a
  h_S11x1024 : 0 < S11x1024.numel
  shapeCasts_S11x1024_S11x1024 : S11x1024.ShapeCasts S11x1024
  slices_S512x11_o0_0_S512x8 : S512x11.Slices ![0, 0] S512x8
  slices_S512x11_o0_8_S512x1 : S512x11.Slices ![0, 8] S512x1
  slices_S512x11_o0_9_S512x1 : S512x11.Slices ![0, 9] S512x1
  slices_S512x11_o0_10_S512x1 : S512x11.Slices ![0, 10] S512x1
  slices_S11x1024_o0_0_S8x1024 : S11x1024.Slices ![0, 0] S8x1024
  slices_S11x1024_o8_0_S1x1024 : S11x1024.Slices ![8, 0] S1x1024
  slices_S11x1024_o9_0_S1x1024 : S11x1024.Slices ![9, 0] S1x1024
  slices_S11x1024_o10_0_S1x1024 : S11x1024.Slices ![10, 0] S1x1024
  broadcasts_S512x1_S512x1024 : S512x1.Broadcasts S512x1024
  broadcasts_S1x1024_S512x1024 : S1x1024.Broadcasts S512x1024
  inpos_S1x1_p0_0 : ∀ a, (![0, 0] : Fin 2 → Nat) a < S1x1.size a
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1x1_S1x1 : S1x1.ShapeCasts S1x1
  shapeCasts_S1x1_S_ : S1x1.ShapeCasts S_
  dot_S8x8192_S8192x8_S8x8_1_0_0_1_n_n_wf : DotDims.WF S8x8192 S8192x8 S8x8 [1] [0] [0] [1] [] []
  dot_S8192x8_S8x8_S8192x8_1_0_0_1_n_n_wf : DotDims.WF S8192x8 S8x8 S8192x8 [1] [0] [0] [1] [] []
  dot_S4096x8_S8x8_S4096x8_1_0_0_1_n_n_wf : DotDims.WF S4096x8 S8x8 S4096x8 [1] [0] [0] [1] [] []
  dot_S512x8_S8x1024_S512x1024_1_0_0_1_n_n_wf : DotDims.WF S512x8 S8x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .i32 = 32 ∨ (Rect.block (s := S8192x4096) S512x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x11.size a ≤ S8192x11.size a
  hwx0_1 : ∀ i : grid0.Coords, EltTy.bits .f32 = 32 ∨ (Rect.block (s := S8192x11) S512x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S11x1024.size a ≤ S11x4096.size a
  hwx0_2 : ∀ i : grid0.Coords, EltTy.bits .f32 = 32 ∨ (Rect.block (s := S11x4096) S11x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S8x8192_S8192x8_S8x8_1_0_0_1_n_n : DotDims S8x8192 S8192x8 S8x8 where
  lhsContracting := [1]
  rhsContracting := [0]
  lhsNonContracting := [0]
  rhsNonContracting := [1]
  lhsBatch := []
  rhsBatch := []
  wf := dot_S8x8192_S8192x8_S8x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf
def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S11x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S4096 : Shape := ⟨1, ![4096]⟩
abbrev S1 : Shape := ⟨1, ![1]⟩
abbrev S8x8192 : Shape := ⟨2, ![8, 8192]⟩
abbrev S8192x8 : Shape := ⟨2, ![8192, 8]⟩
abbrev S4096x8 : Shape := ⟨2, ![4096, 8]⟩
abbrev S_ : Shape := ⟨0, ![]⟩
abbrev S8 : Shape := ⟨1, ![8]⟩
abbrev S8x1 : Shape := ⟨2, ![8, 1]⟩
abbrev S8192x1 : Shape := ⟨2, ![8192, 1]⟩
abbrev S8x8 : Shape := ⟨2, ![8, 8]⟩
abbrev S8192x1x8 : Shape := ⟨3, ![8192, 1, 8]⟩
abbrev S1x4096x8 : Shape := ⟨3, ![1, 4096, 8]⟩
abbrev S8192x4096x8 : Shape := ⟨3, ![8192, 4096, 8]⟩
abbrev S1x4096 : Shape := ⟨2, ![1, 4096]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .i32⟩
  | .hbm, ⟨1, _⟩ => ⟨S8192, .f32⟩
  | .hbm, ⟨2, _⟩ => ⟨S4096, .f32⟩
  | .hbm, ⟨3, _⟩ => ⟨S1, .f32⟩
  | .hbm, ⟨4, _⟩ => ⟨S8x8192, .f32⟩
  | .hbm, ⟨5, _⟩ => ⟨S8192x8, .f32⟩
  | .hbm, ⟨6, _⟩ => ⟨S8192x8, .f32⟩
  | .hbm, ⟨7, _⟩ => ⟨S4096x8, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8, .f32⟩
  | .hbm, ⟨35, _⟩ => ⟨S8192x8, .f32⟩
  | .hbm, ⟨36, _⟩ => ⟨S8x8, .f32⟩
  | .hbm, ⟨37, _⟩ => ⟨S8192x8, .f32⟩
  | .hbm, ⟨38, _⟩ => ⟨S4096x8, .f32⟩
  | .hbm, ⟨39, _⟩ => ⟨S8192x1x8, .f32⟩
  | .hbm, ⟨40, _⟩ => ⟨S1x4096x8, .f32⟩
  | .hbm, ⟨41, _⟩ => ⟨S8192x4096x8, .f32⟩
  | .hbm, ⟨42, _⟩ => ⟨S8192x4096x8, .f32⟩
  | .hbm, ⟨43, _⟩ => ⟨S8192x4096x8, .f32⟩
  | .hbm, ⟨44, _⟩ => ⟨S_, .f32⟩
  | .hbm, ⟨45, _⟩ => ⟨S8192x4096x8, .f32⟩
  | .hbm, ⟨46, _⟩ => ⟨S8192x4096x8, .f32⟩
  | .hbm, ⟨47, _⟩ => ⟨S8192x4096x8, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x1, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S1x1, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S_, .f32⟩
  | .hbm, ⟨68, _⟩ => ⟨S_, .f32⟩
  | _, _ => ⟨S8192x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  reducesTo_S8x8192_S8_d1 : S8x8192.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x8192_0_1 : S8x1.BroadcastsInDim S8x8192 (![0, 1] : Fin 2 → Fin S8x8192.rank)
  reducesTo_S8192x8_S8192_d1 : S8192x8.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S8192x8_S8192x1x8_0_2 : S8192x8.BroadcastsInDim S8192x1x8 (![0, 2] : Fin 2 → Fin S8192x1x8.rank)
  bcast_S4096x8_S1x4096x8_1_2 : S4096x8.BroadcastsInDim S1x4096x8 (![1, 2] : Fin 2 → Fin S1x4096x8.rank)
  bcast_S8192x1x8_S8192x4096x8_0_1_2 : S8192x1x8.BroadcastsInDim S8192x4096x8 (![0, 1, 2] : Fin 3 → Fin S8192x4096x8.rank)
  bcast_S1x4096x8_S8192x4096x8_0_1_2 : S1x4096x8.BroadcastsInDim S8192x4096x8 (![0, 1, 2] : Fin 3 → Fin S8192x4096x8.rank)
  bcast_S_S8192x4096x8 : S_.BroadcastsInDim S8192x4096x8 (![] : Fin 0 → Fin S8192x4096x8.rank)
  reducesTo_S8192x4096x8_S8192x4096_d2 : S8192x4096x8.ReducesTo [2] S8192x4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S1_S1x1_1 : S1.BroadcastsInDim S1x1 (![1] : Fin 1 → Fin S1x1.rank)
  bcast_S1x1_S8192x4096_0_1 : S1x1.BroadcastsInDim S8192x4096 (![0, 1] : Fin 2 → Fin S8192x4096.rank)
  reducesTo_S8192x4096_S_d0_1 : S8192x4096.ReducesTo [0, 1] S_
  dot_S8x8192_S8192x8_S8x8_1_0_0_1_n_n_wf : DotDims.WF S8x8192 S8192x8 S8x8 [1] [0] [0] [1] [] []
  dot_S8192x8_S8x8_S8192x8_1_0_0_1_n_n_wf : DotDims.WF S8192x8 S8x8 S8192x8 [1] [0] [0] [1] [] []
  dot_S4096x8_S8x8_S4096x8_1_0_0_1_n_n_wf : DotDims.WF S4096x8 S8x8 S4096x8 [1] [0] [0] [1] [] []

variable [Facts₀]

def dot_S8x8192_S8192x8_S8x8_1_0_0_1_n_n : DotDims S8x8192 S8192x8 S8x8 where
  lhsContracting := [1]
  rhsContracting := [0]
  lhsNonContracting := [0]
  rhsNonContracting := [1]
  lhsBatch := []
  rhsBatch := []
  wf := dot_S8x8192_S8192x8_S8x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf

class Facts : Prop extends Facts₀ where

variable [Facts]
-- ==== Proof.BitsAround.lean ====
/-
  The host lines around the one region of `Kernel`'s @main, read as mathematics.

  @main is three stretches: 53 host operations that build, from the eight argument arrays, the two packed operands
  the region stages — `zi_combined` (each row: the 8 coordinates of zi, then Σ zi², Σ zi, β) and `zj_combined`
  (each column: the 8 coordinates of zj, then Σ zj², Σ zj, γ) — and the 1×1 array holding `a`; the region itself, a
  16 × 4 grid of points; and one reshape of the region's 1×1 result to a scalar.

  This module fixes what the region FINDS (`V0`: the memory after the first stretch), shows that no host line writes
  an argument array, names each window's block at a grid point (`iblk`), states when the body's one branch is taken
  (only at the first grid point: that is where the running sum is reset), and turns a run of the whole program to the
  library's frame post into the statement that all eight argument arrays end as they began.
-/
import proofs.«179995_j23579370455160_1_alg».proof.Proof.Gen.Kernel.Launch
import proofs.«179995_j23579370455160_1_alg».proof.Proof.Gen.Kernel.Skeleton
import proofs.«179995_j23579370455160_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The core's buffers when the region is entered: the launch memory after the 53 host operations that precede it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's result and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the five arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are never written -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, cut out of its array as the region finds it. For the adjacency matrix
    (window 0) it is the 512 × 1024 tile at (row block, column block); for `zi_combined` (window 1) the 512 rows of the
    row block; for `zj_combined` (window 2) the 1024 columns of the column block; for `a` and the result the one cell. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not the point fetched it (where it
    did not, the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not the point fetched it (where it
    did not, the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not the point fetched it (where it
    did not, the block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether or not the point fetched it (where it
    did not, the block index has not moved since the last fetch). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## All eight arguments end unchanged -/

/-- From a run of the whole program to the library's frame post: the adjacency matrix is a staged INPUT of the region,
    so it ends at its entry contents; the other seven arguments are staged by no window, so they end as the reshape
    after the region leaves them — untouched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c)⟩) h

/-! ## The body's one branch -/

/-- The condition of the body's `if`: both grid coordinates are zero (the comparison chain as the program spells it). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 64 grid points and at no other. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers the body is called with -/

/-- The result's one staging buffer, through which its contents are stated. -/
abbrev VO0_4 : View sig .tc .vmem S1x1 .f32 := (Memref.whole cc0_stg4_0 : Memref sig .tc .vmem S1x1 .f32).view
abbrev ms0_0 (t : Fin cfg0.N) : Memref sig .tc .vmem S512x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x11 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S11x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Around

end
-- ==== Proof.BitsRunFirst.lean ====
/-
  The body of `Kernel`'s kernel at the FIRST grid point, run once on arbitrary whole staging buffers.

  At the first point the branch is taken: the 1×1 running sum is set to zero, and then — as at every point — the
  point's contribution is added to it. So whatever the result's buffer held before, it ends holding the contribution
  of the first tile alone. The four inputs' buffers are only read and come back as they were.
-/
import proofs.«179995_j23579370455160_1_alg».proof.Proof.BitsAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the result's buffer at the first point, with the proof that the body runs: the four
    input buffers at their contents, the result's buffer at anything. -/
noncomputable def kernelRun0_A (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__ll_kernel i arg2 harg2 arg3 harg3 arg4 harg4 arg5 harg5 arg6 harg6) K } := by
  refine ⟨?_, fun E K => ?run⟩
  case run =>
    simp only [cc0__ll_kernel_eq_skeleton]; unfold cc0__ll_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Around

end
-- ==== Proof.BitsRunLater.lean ====
/-
  The body of `Kernel`'s kernel at any LATER grid point, run once on arbitrary whole staging buffers.

  The branch is not taken: the 1×1 running sum is read as the point before left it (`xo4`), and the point's
  contribution is added to it.
-/
import proofs.«179995_j23579370455160_1_alg».proof.Proof.BitsRunFirst

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the result's buffer at a later point, with the proof that the body runs: the four
    input buffers at their contents, the result's buffer at the running sum `xo4`. -/
noncomputable def kernelRun0_B (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__ll_kernel i arg2 harg2 arg3 harg3 arg4 harg4 arg5 harg5 arg6 harg6) K } := by
  refine ⟨?_, fun E K => ?run⟩
  case run =>
    simp only [cc0__ll_kernel_eq_skeleton]; unfold cc0__ll_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Around

end
-- ==== Proof.BitsFrame.lean ====
/-
  The frame of `Kernel`: every execution of @main terminates without a fault and leaves all eight argument arrays as
  they were — together with WHAT the region's 1×1 result holds afterwards, named point by point.

  The region visits its 64 grid points in order. The result's one staging buffer is never written back between points
  (only after the last), so it carries a running sum: after the first point it holds the first tile's contribution
  (the body resets it there), after each later point what the point before left plus that point's contribution
  (`outsAt0`, by recursion on the point). The four inputs' buffers hold their blocks at every point.
-/
import proofs.«179995_j23579370455160_1_alg».proof.Proof.BitsRunLater

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result's buffer, per case -/

/-- At the first point the body's stores into the 1×1 result cover its one cell. -/
theorem cover0_A_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves there: the first tile's contribution added to zero. -/
def out0_A_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- At a later point the body's one store into the 1×1 result covers its one cell. -/
theorem cover0_B_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves there: its tile's contribution added to the running sum `xo4`. -/
def out0_B_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo4).1)

/-! ## The running sum, point by point -/

/-- What the result's staging buffer holds after the body at position `n` of the grid's order: the reset-and-add of the
    first point, then each point's add over what the point before left. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At the first point. -/
theorem outsAt0_A (c : Dev nD) (t : Fin cfg0.N) (h0 : t.val % 64 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 64 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the result's
    at the running sum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the result's staging buffer holds what the body left at the point before: it is written back only
    after the last point. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' buffers hold their blocks; the point is the first or a later one; at a later one
    the result's buffer holds the running sum; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards each array the region stages holds what the proof data
    say (the result: the running sum after the last point) and every other buffer what the reshape after the region
    leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Around

end
-- ==== Proof.IdealAround.lean ====
/-
  The host lines around the one region of `KernelIdeal`'s @main, read as mathematics.

  @main is three stretches: 53 host operations that build, from the eight argument arrays, the two packed operands
  the region stages — `zi_combined` (each row: the 8 coordinates of zi, then Σ zi², Σ zi, β) and `zj_combined`
  (each column: the 8 coordinates of zj, then Σ zj², Σ zj, γ) — and the 1×1 array holding `a`; the region itself, a
  16 × 4 grid of points; and one reshape of the region's 1×1 result to a scalar.

  This module fixes what the region FINDS (`V0`: the memory after the first stretch), shows that no host line writes
  an argument array, names each window's block at a grid point (`iblk`), states when the body's one branch is taken
  (only at the first grid point: that is where the running sum is reset), and turns a run of the whole program to the
  library's frame post into the statement that all eight argument arrays end as they began.
-/
import proofs.«179995_j23579370455160_1_alg».proof.Proof.Gen.KernelIdeal.Launch
import proofs.«179995_j23579370455160_1_alg».proof.Proof.Gen.KernelIdeal.Skeleton
import proofs.«179995_j23579370455160_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the region finds -/

/-- The core's buffers when the region is entered: the launch memory after the 53 host operations that precede it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's result and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the five arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are never written -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, cut out of its array as the region finds it. For the adjacency matrix
    (window 0) it is the 512 × 1024 tile at (row block, column block); for `zi_combined` (window 1) the 512 rows of the
    row block; for `zj_combined` (window 2) the 1024 columns of the column block; for `a` and the result the one cell. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not the point fetched it (where it
    did not, the block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not the point fetched it (where it
    did not, the block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not the point fetched it (where it
    did not, the block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether or not the point fetched it (where it
    did not, the block index has not moved since the last fetch). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## All eight arguments end unchanged -/

/-- From a run of the whole program to the library's frame post: the adjacency matrix is a staged INPUT of the region,
    so it ends at its entry contents; the other seven arguments are staged by no window, so they end as the reshape
    after the region leaves them — untouched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c)⟩) h

/-! ## The body's one branch -/

/-- The condition of the body's `if`: both grid coordinates are zero (the comparison chain as the program spells it). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the 64 grid points and at no other. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers the body is called with -/

/-- The result's one staging buffer, through which its contents are stated. -/
abbrev VO0_4 : View sig .tc .vmem S1x1 .f32 := (Memref.whole cc0_stg4_0 : Memref sig .tc .vmem S1x1 .f32).view
abbrev ms0_0 (t : Fin cfg0.N) : Memref sig .tc .vmem S512x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x11 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S11x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Around

end
-- ==== Proof.IdealRunFirst.lean ====
/-
  The body of `KernelIdeal`'s kernel at the FIRST grid point, run once on arbitrary whole staging buffers.

  At the first point the branch is taken: the 1×1 running sum is set to zero, and then — as at every point — the
  point's contribution is added to it. So whatever the result's buffer held before, it ends holding the contribution
  of the first tile alone. The four inputs' buffers are only read and come back as they were.
-/
import proofs.«179995_j23579370455160_1_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the result's buffer at the first point, with the proof that the body runs: the four
    input buffers at their contents, the result's buffer at anything. -/
noncomputable def kernelRun0_A (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__ll_kernel i arg2 harg2 arg3 harg3 arg4 harg4 arg5 harg5 arg6 harg6) K } := by
  refine ⟨?_, fun E K => ?run⟩
  case run =>
    simp only [cc0__ll_kernel_eq_skeleton]; unfold cc0__ll_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Around

end
-- ==== Proof.IdealRunLater.lean ====
/-
  The body of `KernelIdeal`'s kernel at any LATER grid point, run once on arbitrary whole staging buffers.

  The branch is not taken: the 1×1 running sum is read as the point before left it (`xo4`), and the point's
  contribution is added to it.
-/
import proofs.«179995_j23579370455160_1_alg».proof.Proof.IdealRunFirst

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the result's buffer at a later point, with the proof that the body runs: the four
    input buffers at their contents, the result's buffer at the running sum `xo4`. -/
noncomputable def kernelRun0_B (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__ll_kernel i arg2 harg2 arg3 harg3 arg4 harg4 arg5 harg5 arg6 harg6) K } := by
  refine ⟨?_, fun E K => ?run⟩
  case run =>
    simp only [cc0__ll_kernel_eq_skeleton]; unfold cc0__ll_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Around

end
-- ==== Proof.IdealFrame.lean ====
/-
  The frame of `KernelIdeal`: every execution of @main terminates without a fault and leaves all eight argument arrays as
  they were — together with WHAT the region's 1×1 result holds afterwards, named point by point.

  The region visits its 64 grid points in order. The result's one staging buffer is never written back between points
  (only after the last), so it carries a running sum: after the first point it holds the first tile's contribution
  (the body resets it there), after each later point what the point before left plus that point's contribution
  (`outsAt0`, by recursion on the point). The four inputs' buffers hold their blocks at every point.
-/
import proofs.«179995_j23579370455160_1_alg».proof.Proof.IdealRunLater

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves in the result's buffer, per case -/

/-- At the first point the body's stores into the 1×1 result cover its one cell. -/
theorem cover0_A_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves there: the first tile's contribution added to zero. -/
def out0_A_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S512x1024 .i32) (x1 : Vec F S512x11 .f32) (x2 : Vec F S11x1024 .f32) (x3 : Vec F S1x1 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- At a later point the body's one store into the 1×1 result covers its one cell. -/
theorem cover0_B_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves there: its tile's contribution added to the running sum `xo4`. -/
def out0_B_4 (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S512x1024 .i32) (x1 : Vec F S512x11 .f32) (x2 : Vec F S11x1024 .f32) (x3 : Vec F S1x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo4).1)

/-! ## The running sum, point by point -/

/-- What the result's staging buffer holds after the body at position `n` of the grid's order: the reset-and-add of the
    first point, then each point's add over what the point before left. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At the first point. -/
theorem outsAt0_A (c : Dev nD) (t : Fin cfg0.N) (h0 : t.val % 64 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 64 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the result's
    at the running sum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the result's staging buffer holds what the body left at the point before: it is written back only
    after the last point. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' buffers hold their blocks; the point is the first or a later one; at a later one
    the result's buffer holds the running sum; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards each array the region stages holds what the proof data
    say (the result: the running sum after the last point) and every other buffer what the reshape after the region
    leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Around

end
-- ==== Proof.IdealResult.lean ====
/-
  What `KernelIdeal`'s @main returns, as a term.

  At each grid point the body makes one update of the 1×1 running sum: from the point's four input blocks — the
  512 × 1024 tile of the adjacency matrix, 512 packed rows, 1024 packed columns, the scalar a — and the sum so far it
  stores `sum + (Σ_tile θ·A − Σ_tile softplus θ)` (`step`: the body's last store, over the values its loads return).
  At the first point the sum so far is the zero the body has just stored. So after point n the buffer holds the n-fold
  iterate of `step` from zero over the blocks of points 0 … n (`chain`, shown by induction on the point). The buffer is
  written back once, after the last point, and its one cell is the whole 1×1 result array; the host then reshapes that
  array to a scalar.
-/
import proofs.«179995_j23579370455160_1_alg».proof.Proof.IdealFrame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Around

variable {F : FTy → Type} [FloatOps F] [Named F]
variable (m : (ℓ : Loc nD τ sig) → Buf (Elt F) ℓ) (ρ : Dev nD → PrngReg)

theorem hz : (![0, 0] : Fin 2 → Nat) = fun _ => 0 := funext fun a => by fin_cases a <;> rfl

/-- One grid point's update of the running sum: the body's last store, over what its loads return. -/
def step (x0 : Vec F S512x1024 .i32) (x1 : Vec F S512x11 .f32) (x2 : Vec F S11x1024 .f32) (x3 : Vec F S1x1 .f32)
    (acc : Vec F S1x1 .f32) : Vec F S1x1 .f32 :=
  k0_pay1 (k0_pay5 x1 x2) (k0_pay6 x3) (k0_pay7 x1 x2) x0 acc

-- the body's run is a long term (107 statements over 512 × 1024 vectors): projecting its stores out of it walks all of it
set_option maxHeartbeats 4000000 in
/-- A later point leaves the update of the sum it found. -/
theorem out_later (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc : ¬cond0_0 i)
    (x0 : Vec F S512x1024 .i32) (x1 : Vec F S512x11 .f32) (x2 : Vec F S11x1024 .f32) (x3 : Vec F S1x1 .f32) (xo : Vec F S1x1 .f32) :
    out0_B_4 c i arg2 harg2 arg3 harg3 arg4 harg4 arg5 harg5 arg6 harg6 hc x0 x1 x2 x3 xo = step x0 x1 x2 x3 xo := by
  unfold out0_B_4
  rw [View.read_writes_eq_canon _ _ _ (cover0_B_4 c i arg2 harg2 arg3 harg3 arg4 harg4 arg5 harg5 arg6 harg6 hc x0 x1 x2 x3 xo)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S512x11) hz, View.ld_unit_zero (S := S11x1024) hz,
    View.ld_unit_zero (S := S1x1) hz]
  rfl

set_option maxHeartbeats 4000000 in
/-- The first point leaves the update of the zero it has just stored. -/
theorem out_first (c : Dev nD) (i : grid0.Coords) (arg2 : Memref sig .tc .vmem S512x1024 .i32) (harg2 : arg2.IsWhole) (arg3 : Memref sig .tc .vmem S512x11 .f32) (harg3 : arg3.IsWhole) (arg4 : Memref sig .tc .vmem S11x1024 .f32) (harg4 : arg4.IsWhole) (arg5 : Memref sig .tc .vmem S1x1 .f32) (harg5 : arg5.IsWhole) (arg6 : Memref sig .tc .vmem S1x1 .f32) (harg6 : arg6.IsWhole) (hc : cond0_0 i)
    (x0 : Vec F S512x1024 .i32) (x1 : Vec F S512x11 .f32) (x2 : Vec F S11x1024 .f32) (x3 : Vec F S1x1 .f32) :
    out0_A_4 c i arg2 harg2 arg3 harg3 arg4 harg4 arg5 harg5 arg6 harg6 hc x0 x1 x2 x3 = step x0 x1 x2 x3 (k0_pay2 (F := F)) := by
  unfold out0_A_4
  rw [View.read_writes_eq_canon _ _ _ (cover0_A_4 c i arg2 harg2 arg3 harg3 arg4 harg4 arg5 harg5 arg6 harg6 hc x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x1024) hz, View.ld_unit_zero (S := S512x11) hz, View.ld_unit_zero (S := S11x1024) hz,
    View.ld_unit_zero (S := S1x1) hz]
  rfl

/-- The running sum after point `n`: `step` iterated from zero over the blocks of points 0 … n. -/
def chain (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (k0_pay2 (F := F))
  | n + 1, h => step (iblk m c 0 ⟨n + 1, h⟩) (iblk m c 1 ⟨n + 1, h⟩) (iblk m c 2 ⟨n + 1, h⟩) (iblk m c 3 ⟨n + 1, h⟩)
      (chain c n (Nat.lt_of_succ_lt h))

/-- What the result's staging buffer holds after point `n` is that iterate: by induction on the point. -/
theorem outsAt_eq (c : Dev nD) : ∀ (n : ℕ) (h : n < cfg0.N), outsAt0 m c n h = chain m c n h
  | 0, h => (outsAt0_A m c ⟨0, h⟩ rfl).trans (out_first ..)
  | n + 1, h => by
    have hN : cfg0.N = 64 := N_0
    have hB : ¬(⟨n + 1, h⟩ : Fin cfg0.N).val % 64 = 0 := by dsimp only; omega
    rw [outsAt0_B m c ⟨n + 1, h⟩ hB, out_later]
    show step _ _ _ _ (outsAt0 m c n _) = step _ _ _ _ (chain m c n _)
    rw [outsAt_eq c n]

/-- The last grid point. -/
abbrev lastPt : Fin cfg0.N := ⟨63, by rw [show cfg0.N = 64 from N_0]; decide⟩

/-- The running sum after the last point, as contents of the 1×1 result array. -/
abbrev total (c : Dev nD) : Buf (Elt F) ((c : Thread nD τ).loc main_v43) := chain m c 63 lastPt.isLt

/-- The one write-back, after the last point, writes it: the block at offset (0, 0) of a 1×1 array is the array. -/
theorem flushed_eq (c : Dev nD) (t : Fin cfg0.N) (hf : (cfg0.win 4).flush t = true) :
    (dats m 0 c).flushed 4 t = ((cfg0.win 4).blk t).view.read (Elt F) (total m c) := by
  have hN : cfg0.N = 64 := N_0
  have h63 : t.val = 63 := by have := (flush0_4 t).mp hf; have := t.isLt; omega
  obtain rfl : t = lastPt := Fin.ext h63
  show (cfg0.win 4).cut (grid0.coords lastPt) ((dats m 0 c).after 4 lastPt) = _
  rw [after0_4, outsAt_eq]
  have hoff : (fun a => win0_4.index lastPt a * main_v43.ty.shape.size a) = fun _ => 0 := funext fun a => by fin_cases a <;> decide
  exact (Memref.read_access_unit_zero (Elt F) main_v43 hoff (fun a => by rw [congrFun hoff a]; simp) (total m c)).symm

/-- So the 1×1 result array ends holding the running sum after the last point. -/
theorem final_total (c : Dev nD) : (dats m 0 c).arrAt 4 cfg0.N = total m c :=
  (dats m 0 c).arrAt_eq_of_cover 4 (total m c) (flushed_eq m c) fun i =>
    ⟨lastPt, (flush0_4 lastPt).mpr rfl, by
      show i ∈ ((View.whole main_v43).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-- What @main returns: the 1×1 total reshaped to a scalar. -/
abbrev returned (c : Dev nD) : Buf (Elt F) ((c : Thread nD τ).loc main_v44) :=
  shapeCast S_ (total m c) shapeCasts_S1x1_S_

/-- The reshape after the region reads the region's result array. -/
theorem tail_returned (c : Dev nD) :
    Pipeline.afterTail₀ cfgs (dats m) 0 (V0 m) [hostOps1] c main_v44 = returned m c := by
  unfold Pipeline.afterTail₀
  show StableHlo.after hostOps1 _ (Proc.devRef .tc main_v44) = _
  after_results
  rw [(Pipeline.withArrays_arr spec0 launch0.win.arr_inj c _ _ 4).trans (final_total m c)]
  exact funext fun i => rfl

/-- The run, read: the returned scalar named, the eight arguments unchanged. -/
theorem run : θ_run defs (onTc (τ := τ) (main (F := F))) ⟨m, fun _ => 0, ρ⟩ (fun r => ∀ c : Dev nD,
      r.2.mem ((c.tc : Thread nD τ).loc main_v44) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v44 (Pipeline.mem_restRefs_of main_v44 (by decide) (by decide))).trans (tail_returned m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩) (run_main m ρ)

end Cert.KernelIdeal.Result

end
-- ==== Proof.IdealTile.lean ====
/-
  One grid point's update of the running sum, read as extended reals.

  The body's packed inputs are a 512 × 11 block P (per row: eight coordinates of zi, then Σ zi², Σ zi, β) and an
  11 × 1024 block Q (per column: eight coordinates of zj, then Σ zj², Σ zj, γ). For row r and column l of the tile

      radicand r l = P r 8 + Q 8 l − 2 · Σ_k P r k · Q k l + 2ε · P r 9 − 2ε · Q 9 l + 8ε²
      θ r l        = (P r 10 + Q 10 l) − a · √(max (radicand r l) 0)

  and the update adds Σ_r Σ_l θ r l · A r l − Σ_r Σ_l softplus (θ r l) to the running sum, the two tile sums each taken
  as a lane sum followed by a sum over rows. Every operation below is read at ONE index: a slice shifts the index, a
  broadcast drops a coordinate, the matrix product is the sum over the eight shared coordinates, a reduction is the sum
  over its axis.
-/
import proofs.«179995_j23579370455160_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## Reductions: a lane sum, then a sum over rows -/

theorem lane_sum (v : FVec Ideal S512x1024 .f32) (hφ : FKind.Formats .f32) (hacc : (0x00000000#32 : BitVec 32) = FKind.add.neutral .f32 hφ) (r : Fin 512) :
    multiReduction .add [1] S512 v 0x00000000#32 reduces_S512x1024_S512 hφ hacc (ix1 r) = ∑ l : Fin 1024, v (ix2 r l) := by
  refine (Ideal.multiReduction_add_single v 0x00000000#32 reduces_S512x1024_S512 hφ hacc (ix1 r)).trans ?_
  exact Finset.sum_congr rfl fun l _ => congrArg v (funext fun a => Fin.ext (by match a with | ⟨0, _⟩ => rfl | ⟨1, _⟩ => rfl))

theorem row_sum (v : FVec Ideal S512x1 .f32) (hφ : FKind.Formats .f32) (hacc : (0x00000000#32 : BitVec 32) = FKind.add.neutral .f32 hφ) (z : Fin 1) :
    multiReduction .add [0] S1 v 0x00000000#32 reduces_S512x1_S1 hφ hacc (ix1 z) = ∑ r : Fin 512, v (ix2 r (0 : Fin 1)) := by
  refine (Ideal.multiReduction_add_single v 0x00000000#32 reduces_S512x1_S1 hφ hacc (ix1 z)).trans ?_
  exact Finset.sum_congr rfl fun r _ => congrArg v (funext fun a => Fin.ext (by
    match a with
    | ⟨0, _⟩ => rfl
    | ⟨1, _⟩ => exact congrArg Fin.val (Subsingleton.elim _ (0 : Fin 1))))

/-- A vector of 512 entries seen as a column. -/
theorem column_cast {α : Type} (v : S512.Idx → α) (h : S512.ShapeCasts S512x1) (r : Fin 512) (z : Fin 1) :
    shapeCast S512x1 v h (ix2 r z) = v (ix1 r) :=
  shapeCast_apply v h (ix2 r z) (ix1 r) (by
    rw [Shape.rowMajor_val_one, Shape.rowMajor_val_two]
    show r.val = r.val * 1 + z.val
    have := z.isLt; omega)

/-- A vector of one entry seen as a 1 × 1 array. -/
theorem cell_cast {α : Type} (v : S1.Idx → α) (h : S1.ShapeCasts S1x1) (z w : Fin 1) :
    shapeCast S1x1 v h (ix2 z w) = v (ix1 (0 : Fin 1)) :=
  shapeCast_apply v h (ix2 z w) (ix1 0) (by
    rw [Shape.rowMajor_val_one, Shape.rowMajor_val_two]
    show (0 : Fin 1).val = z.val * 1 + w.val
    have := z.isLt; have := w.isLt; have h0 : (0 : Fin 1).val = 0 := rfl; omega)

/-- The sum over a whole tile, as the body takes it. -/
theorem tile_sum (v : FVec Ideal S512x1024 .f32) (hφ hφ' : FKind.Formats .f32)
    (hacc : (0x00000000#32 : BitVec 32) = FKind.add.neutral .f32 hφ) (hacc' : (0x00000000#32 : BitVec 32) = FKind.add.neutral .f32 hφ') (h1 : S512.ShapeCasts S512x1) (h2 : S1.ShapeCasts S1x1) (z w : Fin 1) :
    shapeCast S1x1 (multiReduction .add [0] S1 (shapeCast S512x1 (multiReduction .add [1] S512 v 0x00000000#32 reduces_S512x1024_S512 hφ hacc) h1)
      0x00000000#32 reduces_S512x1_S1 hφ' hacc') h2 (ix2 z w) = ∑ r : Fin 512, ∑ l : Fin 1024, v (ix2 r l) := by
  rw [cell_cast, row_sum]
  exact Finset.sum_congr rfl fun r _ => by rw [column_cast, lane_sum]

/-! ## Slices of the two packed blocks -/

theorem rows_coord (x : FVec Ideal S512x11 .f32) (h : S512x11.Slices ![0, 0] S512x8) (r : Fin 512) (k : Fin 8) :
    extractStridedSlice S512x8 ![0, 0] x h (ix2 r k) = x (ix2 r (⟨k.val, by omega⟩ : Fin 11)) :=
  extractStridedSlice_apply _ x h _ _ (fun a => by
    match a with
    | ⟨0, _⟩ => show r.val = 0 + r.val; omega
    | ⟨1, _⟩ => show k.val = 0 + k.val; omega)

theorem rows_extra (x : FVec Ideal S512x11 .f32) (o : Nat) (ho : o < 11) (h : S512x11.Slices ![0, o] S512x1) (r : Fin 512) (z : Fin 1) :
    extractStridedSlice S512x1 ![0, o] x h (ix2 r z) = x (ix2 r (⟨o, ho⟩ : Fin 11)) :=
  extractStridedSlice_apply _ x h _ _ (fun a => by
    match a with
    | ⟨0, _⟩ => show r.val = 0 + r.val; omega
    | ⟨1, _⟩ => show o = o + z.val; have := z.isLt; omega)

theorem cols_coord (y : FVec Ideal S11x1024 .f32) (h : S11x1024.Slices ![0, 0] S8x1024) (k : Fin 8) (l : Fin 1024) :
    extractStridedSlice S8x1024 ![0, 0] y h (ix2 k l) = y (ix2 (⟨k.val, by omega⟩ : Fin 11) l) :=
  extractStridedSlice_apply _ y h _ _ (fun a => by
    match a with
    | ⟨0, _⟩ => show k.val = 0 + k.val; omega
    | ⟨1, _⟩ => show l.val = 0 + l.val; omega)

theorem cols_extra (y : FVec Ideal S11x1024 .f32) (o : Nat) (ho : o < 11) (h : S11x1024.Slices ![o, 0] S1x1024) (z : Fin 1) (l : Fin 1024) :
    extractStridedSlice S1x1024 ![o, 0] y h (ix2 z l) = y (ix2 (⟨o, ho⟩ : Fin 11) l) :=
  extractStridedSlice_apply _ y h _ _ (fun a => by
    match a with
    | ⟨0, _⟩ => show o = o + z.val; have := z.isLt; omega
    | ⟨1, _⟩ => show l.val = 0 + l.val; omega)

/-! ## Broadcasts of a column and of a row over the tile -/

theorem over_columns {α : Type} (v : S512x1.Idx → α) (h : S512x1.Broadcasts S512x1024) (r : Fin 512) (l : Fin 1024) :
    broadcastTo S512x1024 v h (ix2 r l) = v (ix2 r (0 : Fin 1)) :=
  broadcastTo_apply v h _ _ (fun a => by match a with | ⟨0, _⟩ => rfl | ⟨1, _⟩ => rfl)

theorem over_rows {α : Type} (v : S1x1024.Idx → α) (h : S1x1024.Broadcasts S512x1024) (r : Fin 512) (l : Fin 1024) :
    broadcastTo S512x1024 v h (ix2 r l) = v (ix2 (0 : Fin 1) l) :=
  broadcastTo_apply v h _ _ (fun a => by match a with | ⟨0, _⟩ => rfl | ⟨1, _⟩ => rfl)

/-! ## The matrix product over the eight shared coordinates -/

theorem cross (L : FVec Ideal S512x8 .f32) (R : FVec Ideal S8x1024 .f32) (r : Fin 512) (l : Fin 1024) :
    matmul dot_S512x8_S8x1024_S512x1024_1_0_0_1_n_n none L R (constant (F := Ideal) S512x1024 .f32 0x00000000#32) (ix2 r l)
      = ∑ k : Fin 8, L (ix2 r k) * R (ix2 k l) := by
  refine (Ideal.matmul_constant_zero_apply dot_S512x8_S8x1024_S512x1024_1_0_0_1_n_n none L R (ix2 r l)).trans ?_
  rw [← Equiv.sum_comp (ValueIdx.contrEquiv1 dot_S512x8_S8x1024_S512x1024_1_0_0_1_n_n 8 rfl rfl).symm]
  refine Finset.sum_congr rfl fun k _ => ?_
  have hk := ValueIdx.contrEquiv1_symm_val dot_S512x8_S8x1024_S512x1024_1_0_0_1_n_n 8 rfl rfl k
  have el : dot_S512x8_S8x1024_S512x1024_1_0_0_1_n_n.lhsIdx (ix2 r l) ((ValueIdx.contrEquiv1 dot_S512x8_S8x1024_S512x1024_1_0_0_1_n_n 8 rfl rfl).symm k) = ix2 r k :=
    funext fun a => Fin.ext (by
      match a with
      | ⟨0, _⟩ =>
        show (dot_S512x8_S8x1024_S512x1024_1_0_0_1_n_n.lhsIdx (ix2 r l) _ 0).val = r.val
        unfold DotDims.lhsIdx
        rw [dif_neg (show ¬(0 : Fin S512x8.rank) ∈ dot_S512x8_S8x1024_S512x1024_1_0_0_1_n_n.lhsBatch by decide), dif_pos (show (0 : Fin S512x8.rank) ∈ dot_S512x8_S8x1024_S512x1024_1_0_0_1_n_n.lhsNonContracting by decide)]
        rfl
      | ⟨1, _⟩ => exact (dot_S512x8_S8x1024_S512x1024_1_0_0_1_n_n.lhsIdx_val_of_single rfl (ix2 r l) _).trans hk)
  have er : dot_S512x8_S8x1024_S512x1024_1_0_0_1_n_n.rhsIdx (ix2 r l) ((ValueIdx.contrEquiv1 dot_S512x8_S8x1024_S512x1024_1_0_0_1_n_n 8 rfl rfl).symm k) = ix2 k l :=
    funext fun a => Fin.ext (by
      match a with
      | ⟨0, _⟩ => exact (dot_S512x8_S8x1024_S512x1024_1_0_0_1_n_n.rhsIdx_val_of_single rfl (ix2 r l) _).trans hk
      | ⟨1, _⟩ =>
        show (dot_S512x8_S8x1024_S512x1024_1_0_0_1_n_n.rhsIdx (ix2 r l) _ 1).val = l.val
        unfold DotDims.rhsIdx
        rw [dif_neg (show ¬(1 : Fin S8x1024.rank) ∈ dot_S512x8_S8x1024_S512x1024_1_0_0_1_n_n.rhsBatch by decide), dif_pos (show (1 : Fin S8x1024.rank) ∈ dot_S512x8_S8x1024_S512x1024_1_0_0_1_n_n.rhsNonContracting by decide)]
        rfl)
  rw [el, er]

/-! ## The update, read at the result's one cell -/

section Pointwise
variable {s : Shape} {φ : FTy}
theorem sqrt_at (a : FVec Ideal s φ) (i : s.Idx) : sqrt a i = Ideal.sqrt (a i) := rfl
theorem exp_at (a : FVec Ideal s φ) (i : s.Idx) : exp a i = Ideal.exp (a i) := rfl
theorem log1p_at (a : FVec Ideal s φ) (i : s.Idx) : log1p a i = Ideal.log1p (a i) := rfl
theorem absf_at (a : FVec Ideal s φ) (i : s.Idx) : absf a i = max (a i) (-(a i)) := rfl
end Pointwise

/-- A column index of the packed blocks. -/
abbrev c11 (k : Nat) (h : k < 11 := by omega) : Fin 11 := ⟨k, h⟩

/-- The quantity under the square root, for row `r` and column `l` of the tile. -/
def radicand (P : FVec Ideal S512x11 .f32) (Q : FVec Ideal S11x1024 .f32) (r : Fin 512) (l : Fin 1024) : EReal :=
  ((((P (ix2 r (c11 8)) + Q (ix2 (c11 8) l))
      - Scalar.ofBits (F := Ideal) .f32 0x40000000#32 * ∑ k : Fin 8, P (ix2 r (⟨k.val, by omega⟩ : Fin 11)) * Q (ix2 (⟨k.val, by omega⟩ : Fin 11) l))
      + Scalar.ofBits (F := Ideal) .f32 0x360637BD#32 * P (ix2 r (c11 9)))
      - Scalar.ofBits (F := Ideal) .f32 0x360637BD#32 * Q (ix2 (c11 9) l))
      + Named.named (F := Ideal) κ "eight_eps_sq" (φ := .f32) 0x2D0CBCCC#32

/-- θ for row `r` and column `l` of the tile. -/
def theta (P : FVec Ideal S512x11 .f32) (Q : FVec Ideal S11x1024 .f32) (a : EReal) (r : Fin 512) (l : Fin 1024) : EReal :=
  (P (ix2 r (c11 10)) + Q (ix2 (c11 10) l)) - a * Ideal.sqrt (max (radicand P Q r l) (Scalar.ofBits (F := Ideal) .f32 0x00000000#32))

/-- The body's softplus of one extended real, as it is spelled: guarded, max(θ, 0) + log1p(exp(0 − |θ − 0|)). -/
def softplusK (t : EReal) : EReal :=
  Scalar.select (Ideal.cmp .one (t - Scalar.ofBits (F := Ideal) .f32 0x00000000#32) (t - Scalar.ofBits (F := Ideal) .f32 0x00000000#32))
    (t + Scalar.ofBits (F := Ideal) .f32 0x00000000#32)
    (max t (Scalar.ofBits (F := Ideal) .f32 0x00000000#32)
      + Ideal.log1p (Ideal.exp (Scalar.ofBits (F := Ideal) .f32 0x00000000#32 - max (t - Scalar.ofBits (F := Ideal) .f32 0x00000000#32) (-(t - Scalar.ofBits (F := Ideal) .f32 0x00000000#32)))))

theorem pay5_apply (P : FVec Ideal S512x11 .f32) (Q : FVec Ideal S11x1024 .f32) (r : Fin 512) (l : Fin 1024) :
    k0_pay5 (F := Ideal) P Q (ix2 r l) = Ideal.sqrt (max (radicand P Q r l) (Scalar.ofBits (F := Ideal) .f32 0x00000000#32)) := by
  unfold k0_pay5 k0_pay3 k0_pay4 radicand
  simp only [shapeCast_self, sqrt_at, maximumf_apply, addf_apply, subf_apply, mulf_apply, broadcast_apply,
    over_columns, over_rows, cross, rows_coord, cols_coord,
    rows_extra _ 8 (by omega), rows_extra _ 9 (by omega), cols_extra _ 8 (by omega), cols_extra _ 9 (by omega)]

theorem pay7_apply (P : FVec Ideal S512x11 .f32) (Q : FVec Ideal S11x1024 .f32) (r : Fin 512) (l : Fin 1024) :
    k0_pay7 (F := Ideal) P Q (ix2 r l) = P (ix2 r (c11 10)) + Q (ix2 (c11 10) l) := by
  unfold k0_pay7 k0_pay3 k0_pay4
  simp only [shapeCast_self, addf_apply, over_columns, over_rows, rows_extra _ 10 (by omega), cols_extra _ 10 (by omega)]

/-- The update at the result's cell: the running sum plus the tile's Σ θ·A minus the tile's Σ softplus θ. -/
theorem step_apply (A : Vec Ideal S512x1024 .i32) (P : FVec Ideal S512x11 .f32) (Q : FVec Ideal S11x1024 .f32)
    (a : FVec Ideal S1x1 .f32) (acc : FVec Ideal S1x1 .f32) (z w : Fin 1) :
    k0_pay1 (F := Ideal) (k0_pay5 P Q) (k0_pay6 a) (k0_pay7 P Q) A acc (ix2 z w)
      = acc (ix2 z w) + ((∑ r : Fin 512, ∑ l : Fin 1024,
            theta P Q (k0_pay6 (F := Ideal) a) r l * FloatOps.sitofp (F := Ideal) .f32 (A (ix2 r l)))
          - ∑ r : Fin 512, ∑ l : Fin 1024, softplusK (theta P Q (k0_pay6 (F := Ideal) a) r l)) := by
  unfold k0_pay1 theta softplusK
  simp only [shapeCast_self, addf_apply, subf_apply]
  refine congrArg (acc (ix2 z w) + ·) (congrArg₂ (· - ·) ((tile_sum _ _ _ _ _ _ _ z w).trans ?_) ((tile_sum _ _ _ _ _ _ _ z w).trans ?_))
  · refine Finset.sum_congr rfl fun r _ => Finset.sum_congr rfl fun l _ => ?_
    simp only [mulf_apply, subf_apply, broadcast_apply, sitofp_apply, pay5_apply, pay7_apply]
  · refine Finset.sum_congr rfl fun r _ => Finset.sum_congr rfl fun l _ => ?_
    simp only [select_apply, cmpf_apply, addf_apply, subf_apply, mulf_apply, maximumf_apply, broadcast_apply, exp_at, log1p_at,
      absf_at, pay5_apply, pay7_apply, Ideal.cmpf_def]

end Cert.KernelIdeal.Tile

end
-- ==== Proof.Reals.lean ====
/-
  The real-number facts behind the equivalence, free of any program.

  * The binomial expansion, termwise over eight coordinates:
      Σ x² + Σ y² − 2 Σ x·y + 2ε Σ x − 2ε Σ y + 8ε²  =  Σ (x − y + ε)².
  * The two spellings of softplus agree on the reals:  max(θ, 0) + log(1 + exp(−|θ|)) = log(1 + exp θ).
  * A quantity built up by adding T(0), T(1), …, one grid point at a time, is Σ_t T(t).
  * The 16 × 4 grid of 512 × 1024 tiles covers the 8192 × 4096 index square exactly once:
      (t, r, l) ↦ (512·(t / 4) + r, 1024·(t mod 4) + l) is a bijection, so a sum over tiles of sums over a tile is the
      sum over the square.
  * The coercion of the reals into the extended reals commutes with finite sums.
-/
import Idealize.ShloMosaic.PureOps.Ideal
import Mathlib.Tactic

noncomputable section

namespace Cert.Reals

open Finset

/-- The coercion ℝ → [−∞, +∞] commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance with the shift ε inside the square, expanded. -/
theorem expand_sq (x y : Fin 8 → ℝ) (ε : ℝ) :
    ((((∑ k, x k * x k) + (∑ k, y k * y k)) - 2 * ∑ k, x k * y k) + (2 * ε) * (∑ k, x k)) - (2 * ε) * (∑ k, y k) + 8 * ε ^ 2
      = ∑ k, (x k - y k + ε) * (x k - y k + ε) := by
  simp only [Fin.sum_univ_eight]; ring

theorem sum_sq_nonneg (d : Fin 8 → ℝ) : 0 ≤ ∑ k, d k * d k := Finset.sum_nonneg fun k _ => mul_self_nonneg _

/-- The guarded form of softplus is log(1 + exp θ). -/
theorem softplus_eq (θ : ℝ) : max θ 0 + Real.log (1 + Real.exp (0 - max (θ - 0) (-(θ - 0)))) = Real.log (1 + Real.exp θ) := by
  simp only [sub_zero, zero_sub]
  rcases le_total 0 θ with h | h
  · rw [max_eq_left h, max_eq_left (by linarith : -θ ≤ θ)]
    have e : 1 + Real.exp θ = Real.exp θ * (1 + Real.exp (-θ)) := by
      rw [mul_add, mul_one, ← Real.exp_add, add_neg_cancel, Real.exp_zero]; ring
    rw [e, Real.log_mul (Real.exp_pos θ).ne' (by positivity), Real.log_exp]
  · rw [max_eq_right h, max_eq_right (by linarith : θ ≤ -θ), neg_neg, zero_add]

/-- Built up one step at a time from zero, it is the sum of the steps. -/
theorem iterate_eq_sum {M : Type*} [AddCommMonoid M] (N : ℕ) (T : Fin N → M) (a : (n : ℕ) → n < N → M)
    (h0 : ∀ h, a 0 h = 0 + T ⟨0, h⟩) (hs : ∀ n h, a (n + 1) h = a n (Nat.lt_of_succ_lt h) + T ⟨n + 1, h⟩) :
    ∀ n (h : n < N), a n h = ∑ t ∈ Finset.range (n + 1), if ht : t < N then T ⟨t, ht⟩ else 0 := by
  intro n
  induction n with
  | zero => intro h; rw [h0, zero_add, Finset.sum_range_one, dif_pos h]
  | succ n ih => intro h; rw [hs, ih, Finset.sum_range_succ _ (n + 1), dif_pos h]

/-- At the last step, the sum over all the points. -/
theorem iterate_last {M : Type*} [AddCommMonoid M] (N : ℕ) (T : Fin (N + 1) → M) (a : (n : ℕ) → n < N + 1 → M)
    (h0 : ∀ h, a 0 h = 0 + T ⟨0, h⟩) (hs : ∀ n h, a (n + 1) h = a n (Nat.lt_of_succ_lt h) + T ⟨n + 1, h⟩) :
    a N (Nat.lt_succ_self N) = ∑ t : Fin (N + 1), T t := by
  rw [iterate_eq_sum (N + 1) T a h0 hs N _, Finset.sum_fin_eq_sum_range]

/-- Tile `t` of the 16 × 4 grid, row `r` and column `l` inside it, as a position in the 8192 × 4096 square. -/
def tileEquiv : Fin 64 × Fin 512 × Fin 1024 ≃ Fin 8192 × Fin 4096 where
  toFun x := (⟨512 * (x.1.val / 4) + x.2.1.val, by omega⟩, ⟨1024 * (x.1.val % 4) + x.2.2.val, by omega⟩)
  invFun y := (⟨4 * (y.1.val / 512) + y.2.val / 1024, by omega⟩, ⟨y.1.val % 512, by omega⟩, ⟨y.2.val % 1024, by omega⟩)
  left_inv x := by
    rcases x with ⟨t, r, l⟩
    refine Prod.ext (Fin.ext ?_) (Prod.ext (Fin.ext ?_) (Fin.ext ?_)) <;> simp only [] <;> omega
  right_inv y := by
    rcases y with ⟨i, j⟩
    refine Prod.ext (Fin.ext ?_) (Fin.ext ?_) <;> simp only [] <;> omega

/-- A sum over the tiles of sums over each tile is the sum over the square. -/
theorem sum_tiles {M : Type*} [AddCommMonoid M] (g : Fin 8192 → Fin 4096 → M) :
    ∑ t : Fin 64, ∑ r : Fin 512, ∑ l : Fin 1024, g (tileEquiv (t, r, l)).1 (tileEquiv (t, r, l)).2 = ∑ i : Fin 8192, ∑ j : Fin 4096, g i j := by
  calc ∑ t : Fin 64, ∑ r : Fin 512, ∑ l : Fin 1024, g (tileEquiv (t, r, l)).1 (tileEquiv (t, r, l)).2
      = ∑ x : Fin 64 × Fin 512 × Fin 1024, g (tileEquiv x).1 (tileEquiv x).2 := by
        simp only [Fintype.sum_prod_type]
    _ = ∑ y : Fin 8192 × Fin 4096, g y.1 y.2 := Fintype.sum_equiv tileEquiv _ _ (fun _ => rfl)
    _ = ∑ i : Fin 8192, ∑ j : Fin 4096, g i j := Fintype.sum_prod_type _

end Cert.Reals

end
-- ==== Proof.IdealTotal.lean ====
/-
  The idealized kernel's 1 × 1 total is the sum, over the 64 grid points, of each tile's term
      Σ_tile θ·A − Σ_tile softplus θ,
  because each point adds its tile's term to the running sum and the first point starts it from zero.
-/
import proofs.«179995_j23579370455160_1_alg».proof.Proof.IdealResult
import proofs.«179995_j23579370455160_1_alg».proof.Proof.IdealTile
import proofs.«179995_j23579370455160_1_alg».proof.Proof.Reals

set_option maxRecDepth 16384

noncomputable section

namespace Cert.KernelIdeal.Total

open Cert.KernelIdeal Cert.KernelIdeal.Gen Cert.KernelIdeal.Around Cert.KernelIdeal.Result
open Idealize.ShloMosaic Idealize.ShloMosaic.TcCoe Idealize.ShloMosaic.ValueIdx Idealize.SL.Sem

variable (m : (ℓ : Loc nD τ sig) → Buf (Elt Ideal) ℓ)

/-- Grid point `t`'s term: over its tile, Σ θ·A − Σ softplus θ, from the point's four blocks. -/
def tileTerm (c : Dev nD) (t : Fin cfg0.N) : EReal :=
  (∑ r : Fin 512, ∑ l : Fin 1024,
      Tile.theta (iblk m c 1 t) (iblk m c 2 t) (k0_pay6 (F := Ideal) (iblk m c 3 t)) r l
        * FloatOps.sitofp (F := Ideal) .f32 ((iblk m c 0 t : Vec Ideal S512x1024 .i32) (ix2 r l)))
    - ∑ r : Fin 512, ∑ l : Fin 1024,
        Tile.softplusK (Tile.theta (iblk m c 1 t) (iblk m c 2 t) (k0_pay6 (F := Ideal) (iblk m c 3 t)) r l)

/-- The zero the first point stores. -/
theorem zero_cell : (k0_pay2 (F := Ideal)) (ix2 (0 : Fin 1) (0 : Fin 1)) = 0 := by
  show Ideal.ofBits .f32 0x00000000#32 = 0
  exact Ideal.ofBits_zero_f32

theorem chain_zero (c : Dev nD) (h : 0 < cfg0.N) :
    chain m c 0 h (ix2 (0 : Fin 1) (0 : Fin 1)) = 0 + tileTerm m c ⟨0, h⟩ := by
  show step (F := Ideal) _ _ _ _ (k0_pay2 (F := Ideal)) (ix2 (0 : Fin 1) (0 : Fin 1)) = _
  unfold step
  rw [Tile.step_apply, zero_cell]
  rfl

theorem chain_succ (c : Dev nD) (n : ℕ) (h : n + 1 < cfg0.N) :
    chain m c (n + 1) h (ix2 (0 : Fin 1) (0 : Fin 1))
      = chain m c n (Nat.lt_of_succ_lt h) (ix2 (0 : Fin 1) (0 : Fin 1)) + tileTerm m c ⟨n + 1, h⟩ := by
  show step (F := Ideal) _ _ _ _ (chain m c n _) (ix2 (0 : Fin 1) (0 : Fin 1)) = _
  unfold step
  rw [Tile.step_apply]
  rfl

/-- The total at its one cell: the sum of the 64 tiles' terms. -/
theorem total_eq (c : Dev nD) : total m c (ix2 (0 : Fin 1) (0 : Fin 1)) = ∑ t : Fin cfg0.N, tileTerm m c t :=
  Cert.Reals.iterate_last 63 (tileTerm m c) (fun n h => chain m c n h (ix2 (0 : Fin 1) (0 : Fin 1)))
    (chain_zero m c) (chain_succ m c)

end Cert.KernelIdeal.Total

end
-- ==== Proof.IdealArrays.lean ====
/-
  The arrays the region finds, named as functions into the extended reals: the adjacency matrix (integers), the packed
  row and column operands and the cell holding a; zi and zj, the two 8-column arrays the packed operands are built from;
  and the arguments β, γ, a as the region finds them (they are never written).
-/
import proofs.«179995_j23579370455160_1_alg».proof.Proof.IdealAround
import Idealize.ShloMosaic.Lib.ValueIdx
import Idealize.ShloMosaic.Lib.Pipeline.Value
import Idealize.ShloMosaic.Lib.StableHlo.Run

noncomputable section

namespace Cert.KernelIdeal.Arrays

open Cert.KernelIdeal Cert.KernelIdeal.Gen Cert.KernelIdeal.Around
open Idealize.ShloMosaic Idealize.ShloMosaic.TcCoe Idealize.ShloMosaic.ValueIdx Idealize.SL.Sem

variable (m : (ℓ : Loc nD τ sig) → Buf (Elt Ideal) ℓ)

abbrev adj (c : Dev nD) : S8192x4096.Idx → BitVec 32 := V m c main_arg0
abbrev beta (c : Dev nD) : S8192.Idx → EReal := V m c main_arg1
abbrev gamma (c : Dev nD) : S4096.Idx → EReal := V m c main_arg2
abbrev scaleA (c : Dev nD) : S1.Idx → EReal := V m c main_arg3
abbrev zi (c : Dev nD) : S8192x8.Idx → EReal := V m c main_v23
abbrev zj (c : Dev nD) : S4096x8.Idx → EReal := V m c main_v24
abbrev packedRows (c : Dev nD) : S8192x11.Idx → EReal := V m c main_v37
abbrev packedCols (c : Dev nD) : S11x4096.Idx → EReal := V m c main_v41
abbrev cellA (c : Dev nD) : S1x1.Idx → EReal := V m c main_v42

/-- Each of them is the launch memory after the 53 host lines, read at its buffer. -/
theorem as_after (c : Dev nD) (b : Ref sig .tc) :
    V m c b = StableHlo.after hostOps0 (fun b => m (c, b)) (Proc.devRef .tc b) := rfl

/-! The two four-operand concatenations of the host prelude, each read with every operand at its own buffer. -/

open Idealize.ShloMosaic.StableHlo in
theorem packedRows_result (F : Valuation τ sig (Elt Ideal)) (h : _) (hxs : _) (hy : _) :
    (nary (τ := τ) ![main_v23, main_v27, main_v29, main_v35] main_v37
        (fun u => concatenate S8192x11 1 [⟨S8192x8, u 0⟩, ⟨S8192x1, u 1⟩, ⟨S8192x1, u 2⟩, ⟨S8192x1, u 3⟩] h) hxs hy).result F
        (no_index (Proc.devRef .tc main_v37))
      = concatenate S8192x11 1 [⟨S8192x8, F (Proc.devRef .tc main_v23)⟩, ⟨S8192x1, F (Proc.devRef .tc main_v27)⟩,
          ⟨S8192x1, F (Proc.devRef .tc main_v29)⟩, ⟨S8192x1, F (Proc.devRef .tc main_v35)⟩] h := by
  rw [nary_result]
  rfl

open Idealize.ShloMosaic.StableHlo in
theorem packedCols_result (F : Valuation τ sig (Elt Ideal)) (h : _) (hxs : _) (hy : _) :
    (nary (τ := τ) ![main_v38, main_v39, main_v40, main_v36] main_v41
        (fun u => concatenate S11x4096 0 [⟨S8x4096, u 0⟩, ⟨S1x4096, u 1⟩, ⟨S1x4096, u 2⟩, ⟨S1x4096, u 3⟩] h) hxs hy).result F
        (no_index (Proc.devRef .tc main_v41))
      = concatenate S11x4096 0 [⟨S8x4096, F (Proc.devRef .tc main_v38)⟩, ⟨S1x4096, F (Proc.devRef .tc main_v39)⟩,
          ⟨S1x4096, F (Proc.devRef .tc main_v40)⟩, ⟨S1x4096, F (Proc.devRef .tc main_v36)⟩] h := by
  rw [nary_result]
  rfl

end Cert.KernelIdeal.Arrays

end
-- ==== Proof.IdealBlocks.lean ====
/-
  The four input blocks at grid point t, as tiles of the arrays the region finds.

  The grid is 16 × 4 in row-major order, so point t is row block t / 4 and column block t mod 4. The adjacency matrix's
  block is rows 512·(t/4) … and columns 1024·(t mod 4) …; the packed rows' block is the same 512 rows, all 11 columns;
  the packed columns' block is all 11 rows and the same 1024 columns; a's block is its one cell. Each window's block
  index is read off the printed index maps, decided once over the 64 points.
-/
import proofs.«179995_j23579370455160_1_alg».proof.Proof.IdealArrays

set_option maxRecDepth 16384

noncomputable section

namespace Cert.KernelIdeal.Blocks

open Cert.KernelIdeal Cert.KernelIdeal.Gen Cert.KernelIdeal.Around Cert.KernelIdeal.Arrays
open Idealize.ShloMosaic Idealize.ShloMosaic.TcCoe Idealize.ShloMosaic.ValueIdx Idealize.SL.Sem

variable (m : (ℓ : Loc nD τ sig) → Buf (Elt Ideal) ℓ)

theorem index_adj : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index_rows : ∀ t : Fin cfg0.N, win0_1.index t 0 = t.val / 4 ∧ win0_1.index t 1 = 0 :=
  (by decide +kernel : ∀ t : Fin grid0.N, win0_1.index t 0 = t.val / 4 ∧ win0_1.index t 1 = 0)
theorem index_cols : ∀ t : Fin cfg0.N, win0_2.index t 0 = 0 ∧ win0_2.index t 1 = t.val % 4 :=
  (by decide +kernel : ∀ t : Fin grid0.N, win0_2.index t 0 = 0 ∧ win0_2.index t 1 = t.val % 4)
theorem index_cell : ∀ t : Fin cfg0.N, win0_3.index t 0 = 0 ∧ win0_3.index t 1 = 0 :=
  (by decide +kernel : ∀ t : Fin grid0.N, win0_3.index t 0 = 0 ∧ win0_3.index t 1 = 0)

theorem block_adj (c : Dev nD) (t : Fin cfg0.N) (r : Fin 512) (l : Fin 1024) :
    (iblk m c 0 t : Vec Ideal S512x1024 .i32) (ix2 r l)
      = adj m c (ix2 (⟨512 * (t.val / 4) + r.val, by have h := t.isLt; have hN : cfg0.N = 64 := N_0; omega⟩ : Fin 8192) (⟨1024 * (t.val % 4) + l.val, by have h := t.isLt; have hN : cfg0.N = 64 := N_0; omega⟩ : Fin 4096)) := by
  have hi := index_adj t
  unfold iblk
  rw [View.read_apply]
  show V m c main_arg0 _ = V m c main_arg0 _
  congr 1
  funext a
  apply Fin.ext
  match a with
  | ⟨0, _⟩ => show win0_0.index t 0 * 512 + 1 * r.val = 512 * (t.val / 4) + r.val; rw [hi.1]; omega
  | ⟨1, _⟩ => show win0_0.index t 1 * 1024 + 1 * l.val = 1024 * (t.val % 4) + l.val; rw [hi.2]; omega

theorem block_rows (c : Dev nD) (t : Fin cfg0.N) (r : Fin 512) (k : Fin 11) :
    (iblk m c 1 t : FVec Ideal S512x11 .f32) (ix2 r k)
      = packedRows m c (ix2 (⟨512 * (t.val / 4) + r.val, by have h := t.isLt; have hN : cfg0.N = 64 := N_0; omega⟩ : Fin 8192) k) := by
  have hi := index_rows t
  unfold iblk
  rw [View.read_apply]
  show V m c main_v37 _ = V m c main_v37 _
  congr 1
  funext a
  apply Fin.ext
  match a with
  | ⟨0, _⟩ => show win0_1.index t 0 * 512 + 1 * r.val = 512 * (t.val / 4) + r.val; rw [hi.1]; omega
  | ⟨1, _⟩ => show win0_1.index t 1 * 11 + 1 * k.val = k.val; rw [hi.2]; omega

theorem block_cols (c : Dev nD) (t : Fin cfg0.N) (k : Fin 11) (l : Fin 1024) :
    (iblk m c 2 t : FVec Ideal S11x1024 .f32) (ix2 k l)
      = packedCols m c (ix2 k (⟨1024 * (t.val % 4) + l.val, by have h := t.isLt; have hN : cfg0.N = 64 := N_0; omega⟩ : Fin 4096)) := by
  have hi := index_cols t
  unfold iblk
  rw [View.read_apply]
  show V m c main_v41 _ = V m c main_v41 _
  congr 1
  funext a
  apply Fin.ext
  match a with
  | ⟨0, _⟩ => show win0_2.index t 0 * 11 + 1 * k.val = k.val; rw [hi.1]; omega
  | ⟨1, _⟩ => show win0_2.index t 1 * 1024 + 1 * l.val = 1024 * (t.val % 4) + l.val; rw [hi.2]; omega

theorem block_cell (c : Dev nD) (t : Fin cfg0.N) (z w : Fin 1) :
    (iblk m c 3 t : FVec Ideal S1x1 .f32) (ix2 z w) = cellA m c (ix2 z w) := by
  have hi := index_cell t
  unfold iblk
  rw [View.read_apply]
  show V m c main_v42 _ = V m c main_v42 _
  congr 1
  funext a
  apply Fin.ext
  match a with
  | ⟨0, _⟩ => show win0_3.index t 0 * 1 + 1 * z.val = z.val; rw [hi.1]; omega
  | ⟨1, _⟩ => show win0_3.index t 1 * 1 + 1 * w.val = w.val; rw [hi.2]; omega

end Cert.KernelIdeal.Blocks

end
-- ==== Proof.IdealPacked.lean ====
/-
  The two packed operands, read entry by entry — over arbitrary pieces, so that nothing of the program's long terms is
  spelled.

  `zi_combined` is four arrays laid side by side along the columns: an 8192 × 8 array and three 8192 × 1 columns; its
  entry (i, k) is the first piece's for k < 8 and the (k − 7)-th column's entry (i, 0) for k = 8, 9, 10.
  `zj_combined` is the same along the rows, of an 8 × 4096 array and three 1 × 4096 rows.
  A keep-dims row total is the initial value plus the sum along the row; a transpose swaps the two coordinates.
-/
import proofs.«179995_j23579370455160_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Packed

open Cert.KernelIdeal Cert.KernelIdeal.Gen Idealize.ShloMosaic Idealize.ShloMosaic.ValueIdx

variable {α : Type}

/-! ## Side by side along the columns -/

theorem beside_main (x0 : S8192x8.Idx → α) (x1 x2 x3 : S8192x1.Idx → α)
    (h : _)
    (i : Fin 8192) (k : Fin 8) :
    concatenate S8192x11 1 [⟨S8192x8, x0⟩, ⟨S8192x1, x1⟩, ⟨S8192x1, x2⟩, ⟨S8192x1, x3⟩] h (ix2 i (⟨k.val, by omega⟩ : Fin 11)) = x0 (ix2 i k) :=
  concatenate_apply_piece 1 _ h _ 0 (by simp) S8192x8 x0 rfl rfl 0 rfl (ix2 i k)
    (fun b hb => by match b with | ⟨0, _⟩ => rfl | ⟨1, _⟩ => exact absurd rfl hb)
    (by show 0 + k.val = k.val; omega)

theorem beside_col8 (x0 : S8192x8.Idx → α) (x1 x2 x3 : S8192x1.Idx → α)
    (h : _)
    (i : Fin 8192) :
    concatenate S8192x11 1 [⟨S8192x8, x0⟩, ⟨S8192x1, x1⟩, ⟨S8192x1, x2⟩, ⟨S8192x1, x3⟩] h (ix2 i (⟨8, by omega⟩ : Fin 11)) = x1 (ix2 i (0 : Fin 1)) :=
  concatenate_apply_piece 1 _ h _ 1 (by simp) S8192x1 x1 rfl rfl 8 rfl (ix2 i (0 : Fin 1))
    (fun b hb => by match b with | ⟨0, _⟩ => rfl | ⟨1, _⟩ => exact absurd rfl hb)
    (by show 8 + 0 = 8; omega)

theorem beside_col9 (x0 : S8192x8.Idx → α) (x1 x2 x3 : S8192x1.Idx → α)
    (h : _)
    (i : Fin 8192) :
    concatenate S8192x11 1 [⟨S8192x8, x0⟩, ⟨S8192x1, x1⟩, ⟨S8192x1, x2⟩, ⟨S8192x1, x3⟩] h (ix2 i (⟨9, by omega⟩ : Fin 11)) = x2 (ix2 i (0 : Fin 1)) :=
  concatenate_apply_piece 1 _ h _ 2 (by simp) S8192x1 x2 rfl rfl 9 rfl (ix2 i (0 : Fin 1))
    (fun b hb => by match b with | ⟨0, _⟩ => rfl | ⟨1, _⟩ => exact absurd rfl hb)
    (by show 9 + 0 = 9; omega)

theorem beside_col10 (x0 : S8192x8.Idx → α) (x1 x2 x3 : S8192x1.Idx → α)
    (h : _)
    (i : Fin 8192) :
    concatenate S8192x11 1 [⟨S8192x8, x0⟩, ⟨S8192x1, x1⟩, ⟨S8192x1, x2⟩, ⟨S8192x1, x3⟩] h (ix2 i (⟨10, by omega⟩ : Fin 11)) = x3 (ix2 i (0 : Fin 1)) :=
  concatenate_apply_piece 1 _ h _ 3 (by simp) S8192x1 x3 rfl rfl 10 rfl (ix2 i (0 : Fin 1))
    (fun b hb => by match b with | ⟨0, _⟩ => rfl | ⟨1, _⟩ => exact absurd rfl hb)
    (by show 10 + 0 = 10; omega)

/-! ## One above the other along the rows -/

theorem above_main (y0 : S8x4096.Idx → α) (y1 y2 y3 : S1x4096.Idx → α)
    (h : _)
    (k : Fin 8) (j : Fin 4096) :
    concatenate S11x4096 0 [⟨S8x4096, y0⟩, ⟨S1x4096, y1⟩, ⟨S1x4096, y2⟩, ⟨S1x4096, y3⟩] h (ix2 (⟨k.val, by omega⟩ : Fin 11) j) = y0 (ix2 k j) :=
  concatenate_apply_piece 0 _ h _ 0 (by simp) S8x4096 y0 rfl rfl 0 rfl (ix2 k j)
    (fun b hb => by match b with | ⟨0, _⟩ => exact absurd rfl hb | ⟨1, _⟩ => rfl)
    (by show 0 + k.val = k.val; omega)

theorem above_row8 (y0 : S8x4096.Idx → α) (y1 y2 y3 : S1x4096.Idx → α)
    (h : _)
    (j : Fin 4096) :
    concatenate S11x4096 0 [⟨S8x4096, y0⟩, ⟨S1x4096, y1⟩, ⟨S1x4096, y2⟩, ⟨S1x4096, y3⟩] h (ix2 (⟨8, by omega⟩ : Fin 11) j) = y1 (ix2 (0 : Fin 1) j) :=
  concatenate_apply_piece 0 _ h _ 1 (by simp) S1x4096 y1 rfl rfl 8 rfl (ix2 (0 : Fin 1) j)
    (fun b hb => by match b with | ⟨0, _⟩ => exact absurd rfl hb | ⟨1, _⟩ => rfl)
    (by show 8 + 0 = 8; omega)

theorem above_row9 (y0 : S8x4096.Idx → α) (y1 y2 y3 : S1x4096.Idx → α)
    (h : _)
    (j : Fin 4096) :
    concatenate S11x4096 0 [⟨S8x4096, y0⟩, ⟨S1x4096, y1⟩, ⟨S1x4096, y2⟩, ⟨S1x4096, y3⟩] h (ix2 (⟨9, by omega⟩ : Fin 11) j) = y2 (ix2 (0 : Fin 1) j) :=
  concatenate_apply_piece 0 _ h _ 2 (by simp) S1x4096 y2 rfl rfl 9 rfl (ix2 (0 : Fin 1) j)
    (fun b hb => by match b with | ⟨0, _⟩ => exact absurd rfl hb | ⟨1, _⟩ => rfl)
    (by show 9 + 0 = 9; omega)

theorem above_row10 (y0 : S8x4096.Idx → α) (y1 y2 y3 : S1x4096.Idx → α)
    (h : _)
    (j : Fin 4096) :
    concatenate S11x4096 0 [⟨S8x4096, y0⟩, ⟨S1x4096, y1⟩, ⟨S1x4096, y2⟩, ⟨S1x4096, y3⟩] h (ix2 (⟨10, by omega⟩ : Fin 11) j) = y3 (ix2 (0 : Fin 1) j) :=
  concatenate_apply_piece 0 _ h _ 3 (by simp) S1x4096 y3 rfl rfl 10 rfl (ix2 (0 : Fin 1) j)
    (fun b hb => by match b with | ⟨0, _⟩ => exact absurd rfl hb | ⟨1, _⟩ => rfl)
    (by show 10 + 0 = 10; omega)

/-! ## Row totals kept as a column, and transposes -/

/-- A row total of an 8192 × 8 array, kept as an 8192 × 1 column: the initial value plus the sum along the row. -/
theorem kept_total_rows (x : FVec Ideal S8192x8 .f32) (init : FVec Ideal S_ .f32) (i : Fin 8192) (z : Fin 1) :
    broadcastInDim S8192x1 ![0] bcast_S8192_S8192x1_0 (Host.reduceAdd (F := Ideal) x init reducesTo_S8192x8_S8192_d1 h_S_) (ix2 i z)
      = init (Shape.Idx.first h_S_) + ∑ k : Fin 8, x (ix2 i k) := by
  refine (broadcastInDim_apply _ bcast_S8192_S8192x1_0 _ (ix2 i z) (ix1 i) (fun a => by match a with | ⟨0, _⟩ => rfl)).trans ?_
  simp only [Host.reduceAdd, Ideal.hostReduceAdd_def]
  rw [Ideal.hostReduceAdd_single reducesTo_S8192x8_S8192_d1 (by decide)]
  refine congrArg (_ + ·) (Finset.sum_congr rfl fun k _ => ?_)
  exact congrArg x (funext fun a => Fin.ext (by match a with | ⟨0, _⟩ => rfl | ⟨1, _⟩ => rfl))

/-- The same for a 4096 × 8 array. -/
theorem kept_total_cols (x : FVec Ideal S4096x8 .f32) (init : FVec Ideal S_ .f32) (j : Fin 4096) (z : Fin 1) :
    broadcastInDim S4096x1 ![0] bcast_S4096_S4096x1_0 (Host.reduceAdd (F := Ideal) x init reducesTo_S4096x8_S4096_d1 h_S_) (ix2 j z)
      = init (Shape.Idx.first h_S_) + ∑ k : Fin 8, x (ix2 j k) := by
  refine (broadcastInDim_apply _ bcast_S4096_S4096x1_0 _ (ix2 j z) (ix1 j) (fun a => by match a with | ⟨0, _⟩ => rfl)).trans ?_
  simp only [Host.reduceAdd, Ideal.hostReduceAdd_def]
  rw [Ideal.hostReduceAdd_single reducesTo_S4096x8_S4096_d1 (by decide)]
  refine congrArg (_ + ·) (Finset.sum_congr rfl fun k _ => ?_)
  exact congrArg x (funext fun a => Fin.ext (by match a with | ⟨0, _⟩ => rfl | ⟨1, _⟩ => rfl))

theorem swap_main (x : S4096x8.Idx → α) (h : S4096x8.Transposes [1, 0] S8x4096) (k : Fin 8) (j : Fin 4096) :
    transpose S8x4096 [1, 0] x h (ix2 k j) = x (ix2 j k) :=
  transpose_apply _ x h (ix2 k j) (ix2 j k) (fun b => by match b with | ⟨0, _⟩ => rfl | ⟨1, _⟩ => rfl)

theorem swap_col (x : S4096x1.Idx → α) (h : S4096x1.Transposes [1, 0] S1x4096) (z : Fin 1) (j : Fin 4096) :
    transpose S1x4096 [1, 0] x h (ix2 z j) = x (ix2 j z) :=
  transpose_apply _ x h (ix2 z j) (ix2 j z) (fun b => by match b with | ⟨0, _⟩ => rfl | ⟨1, _⟩ => rfl)

/-! ## The reshapes of β, γ and a -/

theorem as_column (v : S8192.Idx → α) (h : S8192.ShapeCasts S8192x1) (i : Fin 8192) (z : Fin 1) :
    shapeCast S8192x1 v h (ix2 i z) = v (ix1 i) :=
  shapeCast_apply v h (ix2 i z) (ix1 i) (by
    rw [Shape.rowMajor_val_one, Shape.rowMajor_val_two]
    show i.val = i.val * 1 + z.val
    have := z.isLt; omega)

theorem as_row (v : S4096.Idx → α) (h : S4096.ShapeCasts S1x4096) (z : Fin 1) (j : Fin 4096) :
    shapeCast S1x4096 v h (ix2 z j) = v (ix1 j) :=
  shapeCast_apply v h (ix2 z j) (ix1 j) (by
    rw [Shape.rowMajor_val_one, Shape.rowMajor_val_two]
    show j.val = z.val * 4096 + j.val
    have := z.isLt; omega)

theorem as_cell (v : S1.Idx → α) (h : S1.ShapeCasts S1x1) (z w : Fin 1) :
    shapeCast S1x1 v h (ix2 z w) = v (ix1 (0 : Fin 1)) :=
  shapeCast_apply v h (ix2 z w) (ix1 0) (by
    rw [Shape.rowMajor_val_one, Shape.rowMajor_val_two]
    show (0 : Fin 1).val = z.val * 1 + w.val
    have := z.isLt; have := w.isLt; have h0 : (0 : Fin 1).val = 0 := rfl; omega)

end Cert.KernelIdeal.Packed

end
-- ==== Proof.IdealEntriesRows.lean ====
/-
  The packed row operand (8192 × 11), entry by entry, relative to zi and β: columns 0–7 are zi's, column 8 is
  0 + Σ_k zi², column 9 is 0 + Σ_k zi, column 10 is β.
-/
import proofs.«179995_j23579370455160_1_alg».proof.Proof.IdealArrays
import proofs.«179995_j23579370455160_1_alg».proof.Proof.IdealPacked

noncomputable section

namespace Cert.KernelIdeal.EntriesRows

open Cert.KernelIdeal Cert.KernelIdeal.Gen Cert.KernelIdeal.Around Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Each buffer the host lines write, as the composed term of the argument arrays: one pass over the 53 lines, the
    four-operand concatenations read with each operand at its own reference. -/
local macro "prelude_terms" : tactic =>
  `(tactic| simp (disch := decide) only [after_cons, after_nil, nullary_result', unary_result', binary_result', reshape_result',
      packedRows_result, packedCols_result,
      nullary_result_ne', unary_result_ne', binary_result_ne', reshape_result_ne', nary_result_ne'])

-- the host prelude is 53 operations deep: its composed terms are long
set_option maxRecDepth 65536 in
set_option maxHeartbeats 4000000 in
theorem rows_coord (c : Dev nD) (i : Fin 8192) (k : Fin 8) :
    packedRows m c (ix2 i (⟨k.val, by omega⟩ : Fin 11)) = zi m c (ix2 i k) := by
  have e_packedRows : packedRows m c = StableHlo.after hostOps0 (fun b => m (c, b)) (Proc.devRef .tc main_v37) := rfl
  have e_zi : zi m c = StableHlo.after hostOps0 (fun b => m (c, b)) (Proc.devRef .tc main_v23) := rfl
  rw [e_packedRows, e_zi]
  dsimp only [hostOps0]
  prelude_terms
  exact Packed.beside_main _ _ _ _ _ i k

-- the host prelude is 53 operations deep: its composed terms are long
set_option maxRecDepth 65536 in
set_option maxHeartbeats 4000000 in
theorem rows_sumsq (c : Dev nD) (i : Fin 8192) :
    packedRows m c (ix2 i (⟨8, by omega⟩ : Fin 11))
      = Ideal.ofBits .f32 0x00000000#32 + ∑ k : Fin 8, zi m c (ix2 i k) * zi m c (ix2 i k) := by
  have e_packedRows : packedRows m c = StableHlo.after hostOps0 (fun b => m (c, b)) (Proc.devRef .tc main_v37) := rfl
  have e_zi : zi m c = StableHlo.after hostOps0 (fun b => m (c, b)) (Proc.devRef .tc main_v23) := rfl
  rw [e_packedRows, e_zi]
  dsimp only [hostOps0]
  prelude_terms
  refine (Packed.beside_col8 _ _ _ _ _ i).trans ?_
  exact (Packed.kept_total_rows _ _ i 0).trans rfl

-- the host prelude is 53 operations deep: its composed terms are long
set_option maxRecDepth 65536 in
set_option maxHeartbeats 4000000 in
theorem rows_sum (c : Dev nD) (i : Fin 8192) :
    packedRows m c (ix2 i (⟨9, by omega⟩ : Fin 11))
      = Ideal.ofBits .f32 0x00000000#32 + ∑ k : Fin 8, zi m c (ix2 i k) := by
  have e_packedRows : packedRows m c = StableHlo.after hostOps0 (fun b => m (c, b)) (Proc.devRef .tc main_v37) := rfl
  have e_zi : zi m c = StableHlo.after hostOps0 (fun b => m (c, b)) (Proc.devRef .tc main_v23) := rfl
  rw [e_packedRows, e_zi]
  dsimp only [hostOps0]
  prelude_terms
  refine (Packed.beside_col9 _ _ _ _ _ i).trans ?_
  exact (Packed.kept_total_rows _ _ i 0).trans rfl

-- the host prelude is 53 operations deep: its composed terms are long
set_option maxRecDepth 65536 in
set_option maxHeartbeats 4000000 in
theorem rows_beta (c : Dev nD) (i : Fin 8192) :
    packedRows m c (ix2 i (⟨10, by omega⟩ : Fin 11)) = beta m c (ix1 i) := by
  have e_packedRows : packedRows m c = StableHlo.after hostOps0 (fun b => m (c, b)) (Proc.devRef .tc main_v37) := rfl
  have e_beta : beta m c = StableHlo.after hostOps0 (fun b => m (c, b)) (Proc.devRef .tc main_arg1) := rfl
  rw [e_packedRows, e_beta]
  dsimp only [hostOps0]
  prelude_terms
  refine (Packed.beside_col10 _ _ _ _ _ i).trans ?_
  exact Packed.as_column _ _ i 0

end Cert.KernelIdeal.EntriesRows

end
-- ==== Proof.IdealEntriesCols.lean ====
/-
  The packed column operand (11 × 4096), entry by entry, relative to zj and γ: rows 0–7 are zj transposed, row 8 is
  0 + Σ_k zj², row 9 is 0 + Σ_k zj, row 10 is γ; and the 1 × 1 operand holding a.
-/
import proofs.«179995_j23579370455160_1_alg».proof.Proof.IdealArrays
import proofs.«179995_j23579370455160_1_alg».proof.Proof.IdealPacked

noncomputable section

namespace Cert.KernelIdeal.EntriesCols

open Cert.KernelIdeal Cert.KernelIdeal.Gen Cert.KernelIdeal.Around Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Each buffer the host lines write, as the composed term of the argument arrays: one pass over the 53 lines, the
    four-operand concatenations read with each operand at its own reference. -/
local macro "prelude_terms" : tactic =>
  `(tactic| simp (disch := decide) only [after_cons, after_nil, nullary_result', unary_result', binary_result', reshape_result',
      packedRows_result, packedCols_result,
      nullary_result_ne', unary_result_ne', binary_result_ne', reshape_result_ne', nary_result_ne'])

-- the host prelude is 53 operations deep: its composed terms are long
set_option maxRecDepth 65536 in
set_option maxHeartbeats 4000000 in
theorem cols_coord (c : Dev nD) (k : Fin 8) (j : Fin 4096) :
    packedCols m c (ix2 (⟨k.val, by omega⟩ : Fin 11) j) = zj m c (ix2 j k) := by
  have e_packedCols : packedCols m c = StableHlo.after hostOps0 (fun b => m (c, b)) (Proc.devRef .tc main_v41) := rfl
  have e_zj : zj m c = StableHlo.after hostOps0 (fun b => m (c, b)) (Proc.devRef .tc main_v24) := rfl
  rw [e_packedCols, e_zj]
  dsimp only [hostOps0]
  prelude_terms
  refine (Packed.above_main _ _ _ _ _ k j).trans ?_
  exact Packed.swap_main _ _ k j

-- the host prelude is 53 operations deep: its composed terms are long
set_option maxRecDepth 65536 in
set_option maxHeartbeats 4000000 in
theorem cols_sumsq (c : Dev nD) (j : Fin 4096) :
    packedCols m c (ix2 (⟨8, by omega⟩ : Fin 11) j)
      = Ideal.ofBits .f32 0x00000000#32 + ∑ k : Fin 8, zj m c (ix2 j k) * zj m c (ix2 j k) := by
  have e_packedCols : packedCols m c = StableHlo.after hostOps0 (fun b => m (c, b)) (Proc.devRef .tc main_v41) := rfl
  have e_zj : zj m c = StableHlo.after hostOps0 (fun b => m (c, b)) (Proc.devRef .tc main_v24) := rfl
  rw [e_packedCols, e_zj]
  dsimp only [hostOps0]
  prelude_terms
  refine (Packed.above_row8 _ _ _ _ _ j).trans ?_
  refine (Packed.swap_col _ _ 0 j).trans ?_
  exact (Packed.kept_total_cols _ _ j 0).trans rfl

-- the host prelude is 53 operations deep: its composed terms are long
set_option maxRecDepth 65536 in
set_option maxHeartbeats 4000000 in
theorem cols_sum (c : Dev nD) (j : Fin 4096) :
    packedCols m c (ix2 (⟨9, by omega⟩ : Fin 11) j)
      = Ideal.ofBits .f32 0x00000000#32 + ∑ k : Fin 8, zj m c (ix2 j k) := by
  have e_packedCols : packedCols m c = StableHlo.after hostOps0 (fun b => m (c, b)) (Proc.devRef .tc main_v41) := rfl
  have e_zj : zj m c = StableHlo.after hostOps0 (fun b => m (c, b)) (Proc.devRef .tc main_v24) := rfl
  rw [e_packedCols, e_zj]
  dsimp only [hostOps0]
  prelude_terms
  refine (Packed.above_row9 _ _ _ _ _ j).trans ?_
  refine (Packed.swap_col _ _ 0 j).trans ?_
  exact (Packed.kept_total_cols _ _ j 0).trans rfl

-- the host prelude is 53 operations deep: its composed terms are long
set_option maxRecDepth 65536 in
set_option maxHeartbeats 4000000 in
theorem cols_gamma (c : Dev nD) (j : Fin 4096) :
    packedCols m c (ix2 (⟨10, by omega⟩ : Fin 11) j) = gamma m c (ix1 j) := by
  have e_packedCols : packedCols m c = StableHlo.after hostOps0 (fun b => m (c, b)) (Proc.devRef .tc main_v41) := rfl
  have e_gamma : gamma m c = StableHlo.after hostOps0 (fun b => m (c, b)) (Proc.devRef .tc main_arg2) := rfl
  rw [e_packedCols, e_gamma]
  dsimp only [hostOps0]
  prelude_terms
  refine (Packed.above_row10 _ _ _ _ _ j).trans ?_
  exact Packed.as_row _ _ 0 j

-- the host prelude is 53 operations deep: its composed terms are long
set_option maxRecDepth 65536 in
set_option maxHeartbeats 4000000 in
theorem cell_a (c : Dev nD) (z w : Fin 1) :
    cellA m c (ix2 z w) = scaleA m c (ix1 (0 : Fin 1)) := by
  have e_cellA : cellA m c = StableHlo.after hostOps0 (fun b => m (c, b)) (Proc.devRef .tc main_v42) := rfl
  have e_scaleA : scaleA m c = StableHlo.after hostOps0 (fun b => m (c, b)) (Proc.devRef .tc main_arg3) := rfl
  rw [e_cellA, e_scaleA]
  dsimp only [hostOps0]
  prelude_terms
  exact Packed.as_cell _ _ z w

end Cert.KernelIdeal.EntriesCols

end
-- ==== Proof.IdealSameZ.lean ====
/-
  The kernel's zi and zj are the reference's: the same 25 host operations applied to the same arguments.
-/
import proofs.«179995_j23579370455160_1_alg».proof.Proof.IdealArrays
import proofs.«179995_j23579370455160_1_alg».proof.Proof.Gen.ReferenceIdeal.Read

noncomputable section

namespace Cert.KernelIdeal.SameZ

open Cert.KernelIdeal Cert.KernelIdeal.Gen Cert.KernelIdeal.Around Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ)

local macro "prelude_terms" : tactic =>
  `(tactic| simp (disch := decide) only [after_cons, after_nil, nullary_result', unary_result', binary_result', reshape_result', nary4_result',
      nullary_result_ne', unary_result_ne', binary_result_ne', reshape_result_ne', nary_result_ne'])

-- the host prelude is 53 operations deep: its composed terms are long
set_option maxRecDepth 65536 in
set_option maxHeartbeats 4000000 in
theorem zi_eq (c : Dev nD) :
    zi m c = Cert.ReferenceIdeal.Read.val_main_v23 (F := Ideal) (m ((c : Thread nD τ).loc main_arg4)) (m ((c : Thread nD τ).loc main_arg5))
      (m ((c : Thread nD τ).loc main_arg6)) := by
  have e_zi : zi m c = StableHlo.after hostOps0 (fun b => m (c, b)) (Proc.devRef .tc main_v23) := rfl
  rw [e_zi]
  dsimp only [hostOps0]
  prelude_terms
  rfl

-- the host prelude is 53 operations deep: its composed terms are long
set_option maxRecDepth 65536 in
set_option maxHeartbeats 4000000 in
theorem zj_eq (c : Dev nD) :
    zj m c = Cert.ReferenceIdeal.Read.val_main_v24 (F := Ideal) (m ((c : Thread nD τ).loc main_arg4)) (m ((c : Thread nD τ).loc main_arg5))
      (m ((c : Thread nD τ).loc main_arg7)) := by
  have e_zj : zj m c = StableHlo.after hostOps0 (fun b => m (c, b)) (Proc.devRef .tc main_v24) := rfl
  rw [e_zj]
  dsimp only [hostOps0]
  prelude_terms
  rfl

end Cert.KernelIdeal.SameZ

end
-- ==== Proof.RefStages.lean ====
/-
  The reference, read index by index.

  With zi and zj the two 8-column arrays its first 25 operations produce, the reference's θ at (i, j) is
      (β i + γ j) − a · √(0 + Σ_k (zi i k − zj j k + ε)²),
  and its result is (0 + Σ_ij θ·A) − (0 + Σ_ij log1p (exp θ)), the two sums over the whole 8192 × 4096 square.
  Each line below is one of the generated read-at-an-index lemmas; what is added by hand is only that the composed
  index functions are the evident coordinates.
-/
import proofs.«179995_j23579370455160_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.Stages

open Cert.ReferenceIdeal Cert.ReferenceIdeal.Gen Cert.ReferenceIdeal.Read Idealize.ShloMosaic Idealize.ShloMosaic.ValueIdx

/-- The reference's θ at row i and column j, over its zi and zj. -/
def thetaR (zi : FVec Ideal S8192x8 .f32) (zj : FVec Ideal S4096x8 .f32)
    (x1 : FVec Ideal S8192 .f32) (x2 : FVec Ideal S4096 .f32) (x3 : FVec Ideal S1 .f32) (i : Fin 8192) (j : Fin 4096) : EReal :=
  (x1 (ix1 i) + x2 (ix1 j))
    - x3 (ix1 (0 : Fin 1)) * Ideal.sqrt (Ideal.ofBits .f32 0x00000000#32
        + ∑ k : Fin 8, ((zi (ix2 i k) - zj (ix2 j k)) + Ideal.ofBits .f32 0x358637BD#32)
            * ((zi (ix2 i k) - zj (ix2 j k)) + Ideal.ofBits .f32 0x358637BD#32))

variable (x0 : (⟨S8192x4096, .i32⟩ : BufTy).Contents (Elt Ideal)) (x1 : (⟨S8192, .f32⟩ : BufTy).Contents (Elt Ideal))
  (x2 : (⟨S4096, .f32⟩ : BufTy).Contents (Elt Ideal)) (x3 : (⟨S1, .f32⟩ : BufTy).Contents (Elt Ideal))
  (x4 : (⟨S8x8192, .f32⟩ : BufTy).Contents (Elt Ideal)) (x5 x6 : (⟨S8192x8, .f32⟩ : BufTy).Contents (Elt Ideal))
  (x7 : (⟨S4096x8, .f32⟩ : BufTy).Contents (Elt Ideal))

theorem theta_at (i : Fin 8192) (j : Fin 4096) :
    val_main_v43 (F := Ideal) x1 x2 x3 x4 x5 x6 x7 (ix2 i j)
      = thetaR (val_main_v23 (F := Ideal) x4 x5 x6) (val_main_v24 (F := Ideal) x4 x5 x7) x1 x2 x3 i j := by
  have e1 : idx_main_v35 (idx_main_v37 (ix2 i j)) = ix1 i := funext fun a => Fin.ext (by match a with | ⟨0, _⟩ => rfl)
  have e2 : idx_main_v36 (idx_main_v38 (ix2 i j)) = ix1 j := funext fun a => Fin.ext (by match a with | ⟨0, _⟩ => rfl)
  have e3 : idx_main_v40 (idx_main_v41 (ix2 i j)) = ix1 (0 : Fin 1) := funext fun a => Fin.ext (by match a with | ⟨0, _⟩ => rfl)
  have e4 : ∀ k : Fin 8, idx_main_v25 (idx_main_v27 (idx_main_v33 (ix2 i j) k)) = ix2 i k := fun k =>
    funext fun a => Fin.ext (by match a with | ⟨0, _⟩ => rfl | ⟨1, _⟩ => rfl)
  have e5 : ∀ k : Fin 8, idx_main_v26 (idx_main_v28 (idx_main_v33 (ix2 i j) k)) = ix2 j k := fun k =>
    funext fun a => Fin.ext (by match a with | ⟨0, _⟩ => rfl | ⟨1, _⟩ => rfl)
  rw [val_main_v43_apply, val_main_v39_apply, val_main_v37_apply, val_main_v35_apply, val_main_v38_apply, val_main_v36_apply,
    val_main_v42_apply, val_main_v41_apply, val_main_v40_apply, val_main_v34_apply, val_main_v33_apply]
  simp only [val_main_v32_apply, val_main_v31_apply, val_main_v29_apply, val_main_v27_apply, val_main_v25_apply, val_main_v28_apply,
    val_main_v26_apply, val_main_v30_apply, val_main_cst_5_apply, val_main_cst_6_apply, e1, e2, e3, e4, e5]
  rfl

/-- The reference's result: the difference of its two whole sums. -/
theorem result_at (i0 : S_.Idx) :
    val_main_v50 (F := Ideal) x0 x1 x2 x3 x4 x5 x6 x7 i0
      = (Ideal.ofBits .f32 0x00000000#32 + ∑ i : Fin 8192, ∑ j : Fin 4096,
            thetaR (val_main_v23 (F := Ideal) x4 x5 x6) (val_main_v24 (F := Ideal) x4 x5 x7) x1 x2 x3 i j
              * FloatOps.sitofp (F := Ideal) .f32 (x0 (ix2 i j)))
        - (Ideal.ofBits .f32 0x00000000#32 + ∑ i : Fin 8192, ∑ j : Fin 4096,
            Ideal.log1p (Ideal.exp (thetaR (val_main_v23 (F := Ideal) x4 x5 x6) (val_main_v24 (F := Ideal) x4 x5 x7) x1 x2 x3 i j))) := by
  rw [val_main_v50_apply, val_main_v46_apply, val_main_v49_apply, ValueIdx.sum_idx2, ValueIdx.sum_idx2]
  simp only [val_main_v45_apply, val_main_v44_apply, val_main_v48_apply, val_main_v47_apply, theta_at, val_main_cst_7_apply,
    val_main_cst_8_apply]
  rfl

end Cert.ReferenceIdeal.Stages

end
-- ==== Proof.Lift.lean ====
/-
  From extended reals to reals.

  ε is the reference's single-precision 1e-6, the dyadic 8796093 / 2^43. The kernel's three constants are 2, 2ε (the same
  significand one binade up) and the NAMED 8ε². On real data every operation of the tile's θ and of its softplus stays
  real: the radicand is, by the binomial expansion, the sum of squares Σ (x − y + ε)², hence nonnegative, so the maximum
  with 0 and the square root's guard for negative arguments do nothing; the softplus's guard compares a number with
  itself and is off; exp is positive, so log1p(exp ·) is a logarithm of a positive real.
-/
import proofs.«179995_j23579370455160_1_alg».proof.Proof.IdealTile
import proofs.«179995_j23579370455160_1_alg».proof.Proof.Reals
import Idealize.ShloMosaic.PureOps.IdealRules

noncomputable section

namespace Cert.Lift

open Idealize.ShloMosaic Idealize.ShloMosaic.ValueIdx Cert.Reals Cert.KernelIdeal Cert.KernelIdeal.Gen

/-- The reference's ε: the single-precision number nearest 10⁻⁶. -/
def eps : ℝ := 8796093 / 8796093022208

theorem word_zero : Ideal.ofBits .f32 0x00000000#32 = 0 := Ideal.ofBits_zero_f32

theorem word_eps : Ideal.ofBits .f32 0x358637BD#32 = ((eps : ℝ) : EReal) := by
  simp [Ideal.ofBits, Ideal.ieee, -EReal.coe_mul, eps]; norm_num

theorem word_two_eps : Ideal.ofBits .f32 0x360637BD#32 = ((2 * eps : ℝ) : EReal) := by
  simp [Ideal.ofBits, Ideal.ieee, -EReal.coe_mul, eps]; norm_num

theorem word_two : Ideal.ofBits .f32 0x40000000#32 = ((2 : ℝ) : EReal) := by
  simp [Ideal.ofBits, Ideal.ieee, -EReal.coe_mul]; norm_num

theorem word_pos_inf : Ideal.ofBits .f32 0x7F800000#32 = ⊤ := by
  simp [Ideal.ofBits, Ideal.ieee]

theorem word_neg_inf : Ideal.ofBits .f32 0xFF800000#32 = ⊥ := by
  simp [Ideal.ofBits, Ideal.ieee]

/-- The kernel's named constant is 8ε². -/
theorem name_eight_eps_sq :
    Named.named (F := Ideal) Cert.KernelIdeal.κ "eight_eps_sq" (φ := .f32) 0x2D0CBCCC#32 = ((8 * eps ^ 2 : ℝ) : EReal) := by
  rw [IdealRules.named_const.ideal_named_scalar _ _ _ _ rfl]
  congr 1; unfold eps; norm_num

/-- θ on real data. -/
def thetaReal (b g a : ℝ) (x y : Fin 8 → ℝ) : ℝ :=
  (b + g) - a * Real.sqrt (∑ k, (x k - y k + eps) * (x k - y k + eps))

/-- softplus on a real. -/
def softReal (t : ℝ) : ℝ := Real.log (1 + Real.exp t)

theorem sqrt_real {r : ℝ} (h : 0 ≤ r) : Ideal.sqrt (r : EReal) = ((Real.sqrt r : ℝ) : EReal) := by
  rw [Ideal.sqrt_coe, if_neg (not_lt.mpr h)]

theorem log1p_exp_real (t : ℝ) : Ideal.log1p (Ideal.exp (t : EReal)) = ((softReal t : ℝ) : EReal) := by
  rw [Ideal.exp_coe]
  unfold Ideal.log1p softReal
  rw [show (1 : EReal) + ((Real.exp t : ℝ) : EReal) = ((1 + Real.exp t : ℝ) : EReal) by push_cast; rfl,
    Ideal.log_coe, if_neg (by have := Real.exp_pos t; linarith)]

/-- The body's guarded softplus, on a real. -/
theorem softplusK_real (t : ℝ) : Tile.softplusK (t : EReal) = ((softReal t : ℝ) : EReal) := by
  unfold Tile.softplusK
  rw [show Scalar.ofBits (F := Ideal) .f32 0x00000000#32 = (0 : EReal) from word_zero]
  have hc : Ideal.cmp .one ((t : EReal) - 0) ((t : EReal) - 0) = 0#1 := by simp [Ideal.cmp]
  rw [hc, ValueIdx.select_zero]
  have e1 : ((0 : EReal) - max ((t : EReal) - 0) (-((t : EReal) - 0))) = (((0 - max (t - 0) (-(t - 0)) : ℝ)) : EReal) := by
    push_cast; rfl
  rw [e1, log1p_exp_real]
  unfold softReal
  rw [← softplus_eq t]
  push_cast; rfl

/-- The tile's θ on real packed entries is the real θ. -/
theorem theta_real (P : FVec Ideal S512x11 .f32) (Q : FVec Ideal S11x1024 .f32) (a : EReal) (r : Fin 512) (l : Fin 1024)
    (x y : Fin 8 → ℝ) (b g a' : ℝ)
    (hP : ∀ k : Fin 8, P (ix2 r (⟨k.val, by omega⟩ : Fin 11)) = ((x k : ℝ) : EReal))
    (hP8 : P (ix2 r (Tile.c11 8)) = Ideal.ofBits .f32 0x00000000#32 + ∑ k : Fin 8, ((x k : ℝ) : EReal) * ((x k : ℝ) : EReal))
    (hP9 : P (ix2 r (Tile.c11 9)) = Ideal.ofBits .f32 0x00000000#32 + ∑ k : Fin 8, ((x k : ℝ) : EReal))
    (hP10 : P (ix2 r (Tile.c11 10)) = ((b : ℝ) : EReal))
    (hQ : ∀ k : Fin 8, Q (ix2 (⟨k.val, by omega⟩ : Fin 11) l) = ((y k : ℝ) : EReal))
    (hQ8 : Q (ix2 (Tile.c11 8) l) = Ideal.ofBits .f32 0x00000000#32 + ∑ k : Fin 8, ((y k : ℝ) : EReal) * ((y k : ℝ) : EReal))
    (hQ9 : Q (ix2 (Tile.c11 9) l) = Ideal.ofBits .f32 0x00000000#32 + ∑ k : Fin 8, ((y k : ℝ) : EReal))
    (hQ10 : Q (ix2 (Tile.c11 10) l) = ((g : ℝ) : EReal))
    (ha : a = ((a' : ℝ) : EReal)) :
    Tile.theta P Q a r l = ((thetaReal b g a' x y : ℝ) : EReal) := by
  unfold Tile.theta Tile.radicand
  rw [hP8, hP9, hP10, hQ8, hQ9, hQ10, ha]
  simp only [hP, hQ]
  rw [show Scalar.ofBits (F := Ideal) .f32 0x40000000#32 = ((2 : ℝ) : EReal) from word_two,
    show Scalar.ofBits (F := Ideal) .f32 0x360637BD#32 = ((2 * eps : ℝ) : EReal) from word_two_eps,
    show Scalar.ofBits (F := Ideal) .f32 0x00000000#32 = (0 : EReal) from word_zero, name_eight_eps_sq, word_zero]
  simp only [zero_add, ← EReal.coe_mul, ← coe_sum, ← EReal.coe_add, ← EReal.coe_sub]
  rw [expand_sq x y eps, max_eq_left (by exact_mod_cast sum_sq_nonneg fun k => x k - y k + eps), sqrt_real (sum_sq_nonneg fun k => x k - y k + eps)]
  unfold thetaReal
  push_cast; rfl

end Cert.Lift

end
-- ==== Proof.RefFinite.lean ====
/-
  zi and zj are real whenever the inputs are.

  Real numbers are closed under +, −, ·, max and finite sums; exp of a real is a positive real; a quotient of a real by a
  positive real is real. A row maximum is the fold of max from −∞ over finitely many reals of a nonempty row: real. So
  in each softmax the shifted logits are real, their exponentials positive reals, the row's denominator a sum of positive
  reals — positive —, and the quotients real. The mixing matrix is a sum of products of those; zi and zj are sums of
  products of the finite latents with it.
-/
import proofs.«179995_j23579370455160_1_alg».proof.Proof.Gen.ReferenceIdeal.Read
import proofs.«179995_j23579370455160_1_alg».proof.Proof.Reals
import proofs.«179995_j23579370455160_1_alg».proof.Proof.Lift
import Idealize.ShloMosaic.PureOps.Reduce

noncomputable section

namespace Cert.ReferenceIdeal.Finite

open Cert.ReferenceIdeal Cert.ReferenceIdeal.Gen Cert.ReferenceIdeal.Read Idealize.ShloMosaic Idealize.ShloMosaic.ValueIdx Cert.Reals Cert.Lift

/-- An extended real that is a real number. -/
def IsReal (x : EReal) : Prop := ∃ r : ℝ, x = (r : EReal)
/-- … and a positive one. -/
def IsPos (x : EReal) : Prop := ∃ r : ℝ, 0 < r ∧ x = (r : EReal)

theorem IsPos.isReal {x : EReal} (h : IsPos x) : IsReal x := let ⟨r, _, e⟩ := h; ⟨r, e⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  rcases le_total a b with h | h
  · rw [max_eq_right h]; exact hb
  · rw [max_eq_left h]; exact ha
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
theorem IsPos.sum {ι : Type*} (s : Finset ι) (hs : s.Nonempty) (f : ι → EReal) (h : ∀ i, IsPos (f i)) : IsPos (∑ i ∈ s, f i) := by
  choose g hg using h
  exact ⟨∑ i ∈ s, g i, Finset.sum_pos (fun i _ => (hg i).1) hs, by rw [coe_sum]; exact Finset.sum_congr rfl fun i _ => (hg i).2⟩
theorem isPos_exp {a : EReal} (ha : IsReal a) : IsPos (Ideal.exp a) := by
  obtain ⟨x, rfl⟩ := ha; exact ⟨Real.exp x, Real.exp_pos x, rfl⟩
theorem isReal_div {a b : EReal} (ha : IsReal a) (hb : IsPos b) : IsReal (Ideal.div a b) := by
  obtain ⟨x, rfl⟩ := ha; obtain ⟨y, hy, rfl⟩ := hb
  rw [Ideal.div_coe hy.ne']; exact ⟨x * (1 / y), (EReal.coe_mul _ _).symm⟩

/-- The maximum of finitely many reals, folded from −∞: −∞ over no element, otherwise real. -/
theorem fold_max_cases {ι : Type*} [DecidableEq ι] (f : ι → EReal) (hf : ∀ i, IsReal (f i)) (s : Finset ι) :
    (s = ∅ ∧ s.fold max ⊥ f = ⊥) ∨ IsReal (s.fold max ⊥ f) := by
  induction s using Finset.induction_on with
  | empty => exact Or.inl ⟨rfl, Finset.fold_empty⟩
  | insert a s ha ih =>
    right
    rw [Finset.fold_insert ha]
    rcases ih with ⟨-, h⟩ | h
    · rw [h, max_bot_right]; exact hf a
    · exact (hf a).max h

theorem fold_max_real {ι : Type*} [DecidableEq ι] (f : ι → EReal) (hf : ∀ i, IsReal (f i)) (s : Finset ι) (hs : s.Nonempty) :
    IsReal (s.fold max ⊥ f) := by
  rcases fold_max_cases f hf s with ⟨h, -⟩ | h
  · exact absurd h hs.ne_empty
  · exact h

variable (x4 : (⟨S8x8192, .f32⟩ : BufTy).Contents (Elt Ideal)) (x5 x6 : (⟨S8192x8, .f32⟩ : BufTy).Contents (Elt Ideal))
  (x7 : (⟨S4096x8, .f32⟩ : BufTy).Contents (Elt Ideal))
  (h4 : ∀ i, IsReal (x4 i)) (h5 : ∀ i, IsReal (x5 i)) (h6 : ∀ i, IsReal (x6 i)) (h7 : ∀ i, IsReal (x7 i))

/-! ## The softmax over each of the 8 rows of the first logits -/

include h4 in
theorem rowmax4 (i : S8.Idx) : IsReal (val_main_v2 (F := Ideal) x4 i) := by
  rw [val_main_v2_apply, val_main_v1_apply, val_main_cst_0_apply]
  show IsReal (max (Ideal.ofBits .f32 0xFF800000#32) (val_main_v0 (F := Ideal) x4 i))
  rw [word_neg_inf, max_bot_left]
  unfold val_main_v0
  have hfold := Host.reduce_eq_fold_single (FloatOps.maximumf (F := Ideal) (φ := .f32)) x4 (val_main_cst (F := Ideal)) reducesTo_S8x8192_S8_d1 (by decide) h_S_ i
  rw [hfold]
  rw [show (val_main_cst (F := Ideal)) (Shape.Idx.first h_S_) = (⊥ : EReal) from word_neg_inf]
  exact fold_max_real _ (fun k => h4 _) _ ⟨⟨0, by decide⟩, Finset.mem_univ _⟩

include h4 in
theorem expo4 (i : S8x8192.Idx) : IsPos (val_main_v6 (F := Ideal) x4 i) := by
  rw [val_main_v6_apply, val_main_v5_apply, val_main_v4_apply, val_main_v3_apply]
  exact isPos_exp ((h4 i).sub (rowmax4 x4 h4 _))

include h4 in
theorem denom4 (i : S8x8192.Idx) : IsPos (val_main_v9 (F := Ideal) x4 i) := by
  rw [val_main_v9_apply, val_main_v8_apply, val_main_v7_apply, val_main_cst_1_apply]
  show IsPos (Ideal.ofBits .f32 0x00000000#32 + _)
  rw [word_zero, zero_add]
  exact IsPos.sum _ ⟨⟨0, by decide⟩, Finset.mem_univ _⟩ _ (fun k => expo4 x4 h4 _)

include h4 in
theorem soft4 (i : S8x8192.Idx) : IsReal (val_main_v10 (F := Ideal) x4 i) := by
  rw [val_main_v10_apply]
  exact isReal_div (expo4 x4 h4 i).isReal (denom4 x4 h4 i)

/-! ## The softmax over each of the 8192 rows of the second logits -/

include h5 in
theorem rowmax5 (i : S8192.Idx) : IsReal (val_main_v13 (F := Ideal) x5 i) := by
  rw [val_main_v13_apply, val_main_v12_apply, val_main_cst_3_apply]
  show IsReal (max (Ideal.ofBits .f32 0xFF800000#32) (val_main_v11 (F := Ideal) x5 i))
  rw [word_neg_inf, max_bot_left]
  unfold val_main_v11
  have hfold := Host.reduce_eq_fold_single (FloatOps.maximumf (F := Ideal) (φ := .f32)) x5 (val_main_cst_2 (F := Ideal)) reducesTo_S8192x8_S8192_d1 (by decide) h_S_ i
  rw [hfold]
  rw [show (val_main_cst_2 (F := Ideal)) (Shape.Idx.first h_S_) = (⊥ : EReal) from word_neg_inf]
  exact fold_max_real _ (fun k => h5 _) _ ⟨⟨0, by decide⟩, Finset.mem_univ _⟩

include h5 in
theorem expo5 (i : S8192x8.Idx) : IsPos (val_main_v17 (F := Ideal) x5 i) := by
  rw [val_main_v17_apply, val_main_v16_apply, val_main_v15_apply, val_main_v14_apply]
  exact isPos_exp ((h5 i).sub (rowmax5 x5 h5 _))

include h5 in
theorem denom5 (i : S8192x8.Idx) : IsPos (val_main_v20 (F := Ideal) x5 i) := by
  rw [val_main_v20_apply, val_main_v19_apply, val_main_v18_apply, val_main_cst_4_apply]
  show IsPos (Ideal.ofBits .f32 0x00000000#32 + _)
  rw [word_zero, zero_add]
  exact IsPos.sum _ ⟨⟨0, by decide⟩, Finset.mem_univ _⟩ _ (fun k => expo5 x5 h5 _)

include h5 in
theorem soft5 (i : S8192x8.Idx) : IsReal (val_main_v21 (F := Ideal) x5 i) := by
  rw [val_main_v21_apply]
  exact isReal_div (expo5 x5 h5 i).isReal (denom5 x5 h5 i)

/-! ## The mixing matrix, zi and zj -/

include h4 h5 in
theorem mixing (i : S8x8.Idx) : IsReal (val_main_v22 (F := Ideal) x4 x5 i) := by
  rw [val_main_v22_apply]
  exact IsReal.sum _ _ (fun k => (soft4 x4 h4 _).mul (soft5 x5 h5 _))

include h4 h5 h6 in
theorem zi_real (i : S8192x8.Idx) : IsReal (val_main_v23 (F := Ideal) x4 x5 x6 i) := by
  rw [val_main_v23_apply]
  exact IsReal.sum _ _ (fun k => (h6 _).mul (mixing x4 x5 h4 h5 _))

include h4 h5 h7 in
theorem zj_real (i : S4096x8.Idx) : IsReal (val_main_v24 (F := Ideal) x4 x5 x7 i) := by
  rw [val_main_v24_apply]
  exact IsReal.sum _ _ (fun k => (h7 _).mul (mixing x4 x5 h4 h5 _))

end Cert.ReferenceIdeal.Finite

end
-- ==== Proof.Bridge.lean ====
/-
  Both programs return the coercion of ONE real number.

  Let β', γ', a', zi', zj' be the real values of β, γ, a, zi, zj (finite inputs make them real) and, for row i and column j,
      θ'(i, j) = β' i + γ' j − a' · √(Σ_k (zi' i k − zj' j k + ε)²).
  Kernel: at grid point t, row r, column l the tile's θ is θ' at (512·(t/4) + r, 1024·(t mod 4) + l) — the packed entries
  are zi', Σ zi'², Σ zi', β' and their column counterparts, and the binomial expansion folds the radicand back into the sum of
  squares —, its softplus is log(1 + exp θ'), and A's tile entry is the integer at that position. So the total is
      Σ_t ( Σ_r Σ_l θ'·A − Σ_r Σ_l log(1 + exp θ') ),
  all real; the difference distributes over the sum on t and the tiles cover the square once.
  Reference: its θ at (i, j) is θ'(i, j) directly, and its result is Σ_ij θ'·A − Σ_ij log(1 + exp θ').
-/
import proofs.«179995_j23579370455160_1_alg».proof.Proof.IdealTotal
import proofs.«179995_j23579370455160_1_alg».proof.Proof.IdealBlocks
import proofs.«179995_j23579370455160_1_alg».proof.Proof.IdealEntriesRows
import proofs.«179995_j23579370455160_1_alg».proof.Proof.IdealEntriesCols
import proofs.«179995_j23579370455160_1_alg».proof.Proof.IdealSameZ
import proofs.«179995_j23579370455160_1_alg».proof.Proof.RefStages
import proofs.«179995_j23579370455160_1_alg».proof.Proof.RefFinite
import proofs.«179995_j23579370455160_1_alg».proof.Proof.Lift
import proofs.«179995_j23579370455160_1_alg».proof.Proof.Reals

noncomputable section

namespace Cert.Bridge

open Cert.KernelIdeal Cert.KernelIdeal.Gen Cert.KernelIdeal.Around Cert.KernelIdeal.Arrays Cert.KernelIdeal.Result
open Idealize.ShloMosaic Idealize.ShloMosaic.TcCoe Idealize.ShloMosaic.ValueIdx Idealize.SL.Sem Cert.Reals Cert.Lift

/-- The row and the column of the square that tile `t`'s entry (r, l) is. -/
abbrev rowOf (t : Fin 64) (r : Fin 512) : Fin 8192 := ⟨512 * (t.val / 4) + r.val, by omega⟩
abbrev colOf (t : Fin 64) (l : Fin 1024) : Fin 4096 := ⟨1024 * (t.val % 4) + l.val, by omega⟩

theorem sum_over_tiles {M : Type*} [AddCommMonoid M] (g : Fin 8192 → Fin 4096 → M) :
    ∑ t : Fin 64, ∑ r : Fin 512, ∑ l : Fin 1024, g (rowOf t r) (colOf t l) = ∑ i : Fin 8192, ∑ j : Fin 4096, g i j :=
  sum_tiles g

/-- A 1 × 1 array has one index. -/
theorem cell_unique (k : S1x1.Idx) : k = ix2 (0 : Fin 1) (0 : Fin 1) := by
  funext d
  apply Fin.ext
  match d with
  | ⟨0, _⟩ => show (k 0).val = 0; have h : (k 0 : Nat) < 1 := (k 0).isLt; omega
  | ⟨1, _⟩ => show (k 1).val = 0; have h : (k 1 : Nat) < 1 := (k 1).isLt; omega

section Data

variable (b' : S8192.Idx → ℝ) (g' : S4096.Idx → ℝ) (a' : ℝ) (x' : S8192x8.Idx → ℝ) (y' : S4096x8.Idx → ℝ)

/-- θ' at row i and column j. -/
def thetaAt (i : Fin 8192) (j : Fin 4096) : ℝ :=
  thetaReal (b' (ix1 i)) (g' (ix1 j)) a' (fun k => x' (ix2 i k)) (fun k => y' (ix2 j k))

/-- The number both programs return. -/
def answer (A : S8192x4096.Idx → BitVec 32) : ℝ :=
  (∑ i : Fin 8192, ∑ j : Fin 4096, thetaAt b' g' a' x' y' i j * ((A (ix2 i j)).toInt : ℝ))
    - ∑ i : Fin 8192, ∑ j : Fin 4096, softReal (thetaAt b' g' a' x' y' i j)

/-! ## The reference -/

theorem thetaR_real (zi : FVec Ideal Cert.ReferenceIdeal.S8192x8 .f32) (zj : FVec Ideal Cert.ReferenceIdeal.S4096x8 .f32)
    (x1 : FVec Ideal Cert.ReferenceIdeal.S8192 .f32) (x2 : FVec Ideal Cert.ReferenceIdeal.S4096 .f32) (x3 : FVec Ideal Cert.ReferenceIdeal.S1 .f32)
    (i : Fin 8192) (j : Fin 4096) (x y : Fin 8 → ℝ) (b g a : ℝ)
    (hzi : ∀ k : Fin 8, zi (ix2 i k) = ((x k : ℝ) : EReal)) (hzj : ∀ k : Fin 8, zj (ix2 j k) = ((y k : ℝ) : EReal))
    (hb : x1 (ix1 i) = ((b : ℝ) : EReal)) (hg : x2 (ix1 j) = ((g : ℝ) : EReal)) (ha : x3 (ix1 (0 : Fin 1)) = ((a : ℝ) : EReal)) :
    Cert.ReferenceIdeal.Stages.thetaR zi zj x1 x2 x3 i j = ((thetaReal b g a x y : ℝ) : EReal) := by
  unfold Cert.ReferenceIdeal.Stages.thetaR
  rw [hb, hg, ha]
  simp only [hzi, hzj]
  rw [word_zero, word_eps]
  simp only [zero_add, ← EReal.coe_sub, ← EReal.coe_add, ← EReal.coe_mul, ← coe_sum]
  rw [sqrt_real (sum_sq_nonneg fun k => x k - y k + eps)]
  unfold thetaReal
  push_cast; rfl

end Data

/-! ## The kernel -/

section Kernel

/-- The same row and column, for a grid point given as the pipeline counts them. -/
abbrev rowN (t : Fin cfg0.N) (r : Fin 512) : Fin 8192 :=
  ⟨512 * (t.val / 4) + r.val, by have h := t.isLt; have hN : cfg0.N = 64 := N_0; omega⟩
abbrev colN (t : Fin cfg0.N) (l : Fin 1024) : Fin 4096 :=
  ⟨1024 * (t.val % 4) + l.val, by have h := t.isLt; have hN : cfg0.N = 64 := N_0; omega⟩

variable (m : (ℓ : Loc nD τ sig) → Buf (Elt Ideal) ℓ) (c : Dev nD)
variable (b' : S8192.Idx → ℝ) (g' : S4096.Idx → ℝ) (a' : ℝ) (x' : S8192x8.Idx → ℝ) (y' : S4096x8.Idx → ℝ)
variable (hb : ∀ i, beta m c i = ((b' i : ℝ) : EReal)) (hg : ∀ i, gamma m c i = ((g' i : ℝ) : EReal))
  (ha : scaleA m c (ix1 (0 : Fin 1)) = ((a' : ℝ) : EReal))
  (hx : ∀ i, zi m c i = ((x' i : ℝ) : EReal)) (hy : ∀ i, zj m c i = ((y' i : ℝ) : EReal))

include ha in
theorem scalar_a (t : Fin cfg0.N) : k0_pay6 (F := Ideal) (iblk m c 3 t) = ((a' : ℝ) : EReal) := by
  have e : k0_pay6 (F := Ideal) (iblk m c 3 t) = (iblk m c 3 t : FVec Ideal S1x1 .f32) (ix2 (0 : Fin 1) (0 : Fin 1)) := by
    show (iblk m c 3 t : FVec Ideal S1x1 .f32) _ = _
    exact congrArg _ (cell_unique _)
  rw [e, Blocks.block_cell, EntriesCols.cell_a, ha]

include hb hg ha hx hy in
theorem tile_theta (t : Fin cfg0.N) (r : Fin 512) (l : Fin 1024) :
    Tile.theta (iblk m c 1 t) (iblk m c 2 t) (k0_pay6 (F := Ideal) (iblk m c 3 t)) r l
      = ((thetaAt b' g' a' x' y' (rowN t r) (colN t l) : ℝ) : EReal) := by
  refine theta_real _ _ _ r l (fun k => x' (ix2 (rowN t r) k)) (fun k => y' (ix2 (colN t l) k)) (b' (ix1 (rowN t r)))
    (g' (ix1 (colN t l))) a' ?_ ?_ ?_ ?_ ?_ ?_ ?_ ?_ (scalar_a m c a' ha t)
  · intro k; rw [Blocks.block_rows, EntriesRows.rows_coord, hx]
  · rw [Blocks.block_rows, EntriesRows.rows_sumsq]; simp only [hx]
  · rw [Blocks.block_rows, EntriesRows.rows_sum]; simp only [hx]
  · rw [Blocks.block_rows, EntriesRows.rows_beta, hb]
  · intro k; rw [Blocks.block_cols, EntriesCols.cols_coord, hy]
  · rw [Blocks.block_cols, EntriesCols.cols_sumsq]; simp only [hy]
  · rw [Blocks.block_cols, EntriesCols.cols_sum]; simp only [hy]
  · rw [Blocks.block_cols, EntriesCols.cols_gamma, hg]

include hb hg ha hx hy in
theorem tile_term (t : Fin cfg0.N) :
    Total.tileTerm m c t
      = (((∑ r : Fin 512, ∑ l : Fin 1024, thetaAt b' g' a' x' y' (rowN t r) (colN t l) * ((adj m c (ix2 (rowN t r) (colN t l))).toInt : ℝ))
          - ∑ r : Fin 512, ∑ l : Fin 1024, softReal (thetaAt b' g' a' x' y' (rowN t r) (colN t l)) : ℝ) : EReal) := by
  unfold Total.tileTerm
  simp only [tile_theta m c b' g' a' x' y' hb hg ha hx hy, softplusK_real, Blocks.block_adj]
  rw [EReal.coe_sub, coe_sum, coe_sum]
  refine congrArg₂ (· - ·) (Finset.sum_congr rfl fun r _ => ?_) (Finset.sum_congr rfl fun r _ => ?_)
  · rw [coe_sum]; exact Finset.sum_congr rfl fun l _ => by rw [EReal.coe_mul]; rfl
  · rw [coe_sum]

include hb hg ha hx hy in
/-- What the idealized kernel returns. -/
theorem kernel_answer (j : S_.Idx) : returned m c j = ((answer b' g' a' x' y' (adj m c) : ℝ) : EReal) := by
  have e : returned m c j = total m c (ix2 (0 : Fin 1) (0 : Fin 1)) := by
    show shapeCast S_ (total m c) shapeCasts_S1x1_S_ j = _
    unfold shapeCast
    exact congrArg (total m c) (cell_unique _)
  rw [e, Total.total_eq]
  simp only [tile_term m c b' g' a' x' y' hb hg ha hx hy]
  rw [← coe_sum]
  congr 1
  unfold answer
  rw [Finset.sum_sub_distrib]
  exact congrArg₂ (· - ·) (sum_over_tiles (fun i j => thetaAt b' g' a' x' y' i j * ((adj m c (ix2 i j)).toInt : ℝ)))
    (sum_over_tiles (fun i j => softReal (thetaAt b' g' a' x' y' i j)))

end Kernel

/-! ## The reference -/

section Reference

open Cert.ReferenceIdeal.Read in
/-- What the idealized reference returns, on the same real data. -/
theorem reference_answer
    (x0 : (⟨Cert.ReferenceIdeal.S8192x4096, .i32⟩ : BufTy).Contents (Elt Ideal)) (x1 : (⟨Cert.ReferenceIdeal.S8192, .f32⟩ : BufTy).Contents (Elt Ideal))
    (x2 : (⟨Cert.ReferenceIdeal.S4096, .f32⟩ : BufTy).Contents (Elt Ideal)) (x3 : (⟨Cert.ReferenceIdeal.S1, .f32⟩ : BufTy).Contents (Elt Ideal))
    (x4 : (⟨Cert.ReferenceIdeal.S8x8192, .f32⟩ : BufTy).Contents (Elt Ideal)) (x5 x6 : (⟨Cert.ReferenceIdeal.S8192x8, .f32⟩ : BufTy).Contents (Elt Ideal))
    (x7 : (⟨Cert.ReferenceIdeal.S4096x8, .f32⟩ : BufTy).Contents (Elt Ideal))
    (b' : S8192.Idx → ℝ) (g' : S4096.Idx → ℝ) (a' : ℝ) (x' : S8192x8.Idx → ℝ) (y' : S4096x8.Idx → ℝ)
    (hb : ∀ i, x1 i = ((b' i : ℝ) : EReal)) (hg : ∀ i, x2 i = ((g' i : ℝ) : EReal)) (ha : x3 (ix1 (0 : Fin 1)) = ((a' : ℝ) : EReal))
    (hx : ∀ i, val_main_v23 (F := Ideal) x4 x5 x6 i = ((x' i : ℝ) : EReal))
    (hy : ∀ i, val_main_v24 (F := Ideal) x4 x5 x7 i = ((y' i : ℝ) : EReal)) (i0 : Cert.ReferenceIdeal.S_.Idx) :
    val_main_v50 (F := Ideal) x0 x1 x2 x3 x4 x5 x6 x7 i0 = ((answer b' g' a' x' y' x0 : ℝ) : EReal) := by
  rw [Cert.ReferenceIdeal.Stages.result_at]
  have ht : ∀ (i : Fin 8192) (j : Fin 4096),
      Cert.ReferenceIdeal.Stages.thetaR (val_main_v23 (F := Ideal) x4 x5 x6) (val_main_v24 (F := Ideal) x4 x5 x7) x1 x2 x3 i j
        = ((thetaAt b' g' a' x' y' i j : ℝ) : EReal) := fun i j =>
    thetaR_real _ _ _ _ _ i j (fun k => x' (ix2 i k)) (fun k => y' (ix2 j k)) (b' (ix1 i)) (g' (ix1 j)) a'
      (fun k => hx _) (fun k => hy _) (hb _) (hg _) ha
  simp only [ht, log1p_exp_real, word_zero, zero_add]
  unfold answer
  rw [EReal.coe_sub, coe_sum, coe_sum]
  refine congrArg₂ (· - ·) (Finset.sum_congr rfl fun i _ => ?_) (Finset.sum_congr rfl fun i _ => ?_)
  · rw [coe_sum]; exact Finset.sum_congr rfl fun j _ => by rw [EReal.coe_mul]; rfl
  · rw [coe_sum]

end Reference

end Cert.Bridge

end
-- ==== Proof.FiniteInputs.lean ====
/-
  The precondition, read: every float input entry is a real number.

  The predicate is the conjunction of seven tests `all(|x| < +∞)`, one per float input. On the extended reals |x| is
  max(x, −x), and max(x, −x) < +∞ excludes exactly x = +∞ and x = −∞.
-/
import proofs.«179995_j23579370455160_1_alg».proof.Pre_finite_inputs
import proofs.«179995_j23579370455160_1_alg».proof.Proof.Gen.Pre_finite_inputs
import proofs.«179995_j23579370455160_1_alg».proof.Proof.RefFinite
import Idealize.ShloMosaic.Lib.ReduceAll
import Idealize.ShloMosaic.Lib.Affine

noncomputable section

namespace Cert.Pre_finite_inputs.Decode

open Cert.Pre_finite_inputs Cert.Pre_finite_inputs.Gen Idealize.ShloMosaic Idealize.ShloMosaic.ValueIdx Cert.Lift
open Cert.ReferenceIdeal.Finite (IsReal)

instance : Subsingleton S_.Idx := ⟨fun a b => funext fun d => d.elim0⟩

/-- The comparison `|x| < +∞` answering "true" says x is real. -/
theorem real_of_flag (x : EReal) (h : Ideal.cmp .olt (max x (-x)) ⊤ = 1#1) : IsReal x := by
  have hlt : max x (-x) < ⊤ := by
    by_contra hn
    simp [Ideal.cmp, hn] at h
  induction x using EReal.rec with
  | bot => simp at hlt
  | coe r => exact ⟨r, rfl⟩
  | top => simp at hlt

/-- One element of one test. -/
theorem real_of_test {S : Shape} (x : FVec Ideal S .f32) (hb : S_.BroadcastsInDim S (![] : Fin 0 → Fin S.rank)) (i : S.Idx)
    (h : cmpf .olt (Host.absf x) (broadcastInDim S ![] hb (constant (F := Ideal) S_ .f32 0x7F800000#32)) i = 1#1) : IsReal (x i) := by
  have e : broadcastInDim S ![] hb (constant (F := Ideal) S_ .f32 0x7F800000#32) i = (⊤ : EReal) :=
    (broadcastInDim_apply _ hb _ i (fun a => a.elim0) (fun a => a.elim0)).trans word_pos_inf
  have h' : Ideal.cmp .olt (max (x i) (-(x i))) (broadcastInDim S ![] hb (constant (F := Ideal) S_ .f32 0x7F800000#32) i) = 1#1 := h
  rw [e] at h'
  exact real_of_flag _ h'

/-- The predicate all ones: each of the seven float inputs is real at every index. -/
theorem decode (a0 : IVec S8192x4096 32) (a1 : FVec Ideal S8192 .f32) (a2 : FVec Ideal S4096 .f32) (a3 : FVec Ideal S1 .f32) (a4 : FVec Ideal S8x8192 .f32) (a5 a6 : FVec Ideal S8192x8 .f32) (a7 : FVec Ideal S4096x8 .f32)
    (h : fn (F := Ideal) a0 a1 a2 a3 a4 a5 a6 a7 = fun _ => 1#1) :
    (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun h ValueIdx.ix0
  dsimp only [fn, fn_part1, andi] at h0
  obtain ⟨h0, r7⟩ := IntOp.andi_eq_one.mp h0
  obtain ⟨h0, r6⟩ := IntOp.andi_eq_one.mp h0
  obtain ⟨h0, r5⟩ := IntOp.andi_eq_one.mp h0
  obtain ⟨h0, r4⟩ := IntOp.andi_eq_one.mp h0
  obtain ⟨h0, r3⟩ := IntOp.andi_eq_one.mp h0
  obtain ⟨r1, r2⟩ := IntOp.andi_eq_one.mp h0
  exact ⟨fun i => real_of_test a1 bcast_S_S8192 i (Host.reduce_andi_all _ _ _ _ _ r1 i),
    fun i => real_of_test a2 bcast_S_S4096 i (Host.reduce_andi_all _ _ _ _ _ r2 i),
    fun i => real_of_test a3 bcast_S_S1 i (Host.reduce_andi_all _ _ _ _ _ r3 i),
    fun i => real_of_test a4 bcast_S_S8x8192 i (Host.reduce_andi_all _ _ _ _ _ r4 i),
    fun i => real_of_test a5 bcast_S_S8192x8 i (Host.reduce_andi_all _ _ _ _ _ r5 i),
    fun i => real_of_test a6 bcast_S_S8192x8 i (Host.reduce_andi_all _ _ _ _ _ r6 i),
    fun i => real_of_test a7 bcast_S_S4096x8 i (Host.reduce_andi_all _ _ _ _ _ r7 i)⟩

end Cert.Pre_finite_inputs.Decode

end
-- ==== Proof.Agree.lean ====
/-
  From memories that agree on the eight arguments, of which the kernel's satisfies the precondition, the idealized
  reference's result is the idealized kernel's.

  The precondition makes β, γ, a and the four matrix inputs real; then zi and zj are real; both programs return the
  coercion of the same real number (`Bridge.kernel_answer`, `Bridge.reference_answer`), the kernel's arrays being the
  launch contents of its arguments (no host line writes them) and its zi, zj the reference's.
-/
import proofs.«179995_j23579370455160_1_alg».proof.Defs
import proofs.«179995_j23579370455160_1_alg».proof.Proof.Bridge
import proofs.«179995_j23579370455160_1_alg».proof.Proof.FiniteInputs
import proofs.«179995_j23579370455160_1_alg».proof.Proof.Gen.ReferenceIdeal.Run

noncomputable section

namespace Cert.Agree

open Idealize.ShloMosaic Idealize.ShloMosaic.TcCoe Idealize.ShloMosaic.ValueIdx Idealize.SL.Sem
open Cert.KernelIdeal.Around Cert.KernelIdeal.Arrays

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v50 m' c = Cert.KernelIdeal.Result.returned m c := by
  obtain ⟨r1, r2, r3, r4, r5, r6, r7⟩ := Cert.Pre_finite_inputs.Decode.decode _ _ _ _ _ _ _ _ hpre
  choose b' hb using r1
  choose g' hg using r2
  choose a' ha using r3
  choose x' hx using Cert.ReferenceIdeal.Finite.zi_real _ _ _ r4 r5 r6
  choose y' hy using Cert.ReferenceIdeal.Finite.zj_real _ _ _ r4 r5 r7
  funext j
  have hK := Cert.Bridge.kernel_answer m c b' g' (a' (ix1 (0 : Fin 1))) x' y'
    (fun i => (congrFun (V_main_arg1 m c) i).trans (hb i)) (fun i => (congrFun (V_main_arg2 m c) i).trans (hg i))
    ((congrFun (V_main_arg3 m c) _).trans (ha _))
    (fun i => (congrFun (Cert.KernelIdeal.SameZ.zi_eq m c) i).trans (hx i))
    (fun i => (congrFun (Cert.KernelIdeal.SameZ.zj_eq m c) i).trans (hy i)) j
  have hadj : adj m c = m ((c.tc : Thread Cert.KernelIdeal.nD Cert.KernelIdeal.τ).loc Cert.KernelIdeal.main_arg0) := V_main_arg0 m c
  rw [hadj] at hK
  have hR := Cert.Bridge.reference_answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    b' g' (a' (ix1 (0 : Fin 1))) x' y' hb hg (ha _) hx hy j
  rw [Cert.ReferenceIdeal.Read.val_main_v50_eq, h0, h1, h2, h3, h4, h5, h6, h7]
  exact hR.trans hK.symm

end Cert.Agree

end
-- ==== Proof.lean ====
/-
  The kernel computes, over a 16 × 4 grid of 512 × 1024 tiles, the log-likelihood
      Σ_ij θ_ij · A_ij  −  Σ_ij log(1 + exp θ_ij),     θ_ij = β_i + γ_j − a · ‖zi_i − zj_j + ε‖,
  with the squared distance EXPANDED: Σ zi² + Σ zj² − 2 zi·zj + 2ε Σ zi − 2ε Σ zj + 8ε², the cross term a K = 8 matrix
  product and the other five terms rank-one broadcasts of columns packed beside zi and zj on the host. The reference
  forms the 8192 × 4096 × 8 tensor of differences and squares it directly.

  The two agree on the extended reals when every float input is finite: the expansion is the binomial identity, termwise
  over the eight coordinates (it needs finite zi, zj: they are products of finite latents with a product of two
  softmaxes of finite logits); the kernel's constant term is NAMED 8·ε² with ε the reference's own single-precision
  1e-6, which is the relation the kernel's source states; the maximum with 0 is the identity on a sum of squares; the
  kernel's softplus, max(θ,0) + log1p(exp(−|θ|)), is log(1 + exp θ) for real θ; and the grid's running sum of per-tile
  differences is the difference of the two whole sums, every term being finite.

  The three frames: the kernel's two programs run to the end without a fault and leave their arguments unchanged
  (the region's body is run once for the first grid point, where it resets the running sum, and once for a later
  point); the reference is a straight line of host operations.
-/
import proofs.«179995_j23579370455160_1_alg».proof.Defs
import proofs.«179995_j23579370455160_1_alg».proof.Proof.BitsFrame
import proofs.«179995_j23579370455160_1_alg».proof.Proof.IdealFrame
import proofs.«179995_j23579370455160_1_alg».proof.Proof.Gen.ReferenceIdeal.Run
import proofs.«179995_j23579370455160_1_alg».proof.Proof.Gen.Pre_finite_inputs
import proofs.«179995_j23579370455160_1_alg».proof.Proof.IdealResult
import proofs.«179995_j23579370455160_1_alg».proof.Proof.Agree
import Idealize.ShloMosaic.Adequacy
import Idealize.ShloMosaic.Init

noncomputable section

namespace Cert.Proof

open Idealize.ShloMosaic Idealize.SL.Sem

theorem frame_kernel : Cert.frame_Kernel := fun m ρ _ => Cert.Kernel.Around.frame m ρ

theorem frame_kernelIdeal : Cert.frame_KernelIdeal := fun m ρ _ => Cert.KernelIdeal.Around.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite between the kernel and its idealization: the constant 8·ε² named as the exact rational it stands for. -/
theorem preserves : Cert.preserves_Kernel_KernelIdeal :=
  IdealRules.named_const.statement Cert.KernelIdeal.κ "eight_eps_sq" .f32 0x2D0CBCCC#32
    ((77371252064649 / 9671406556917033397649408 : ℝ) : EReal) rfl

/-- At the ideal instance, from memories agreeing on the arguments: the kernel's run ends at the reshape of its grid total,
    the reference's at its composed term, and under finite inputs the two are one real number. -/
theorem algebraic : Cert.algebraic_KernelIdeal_ReferenceIdeal := by
  intro m ρ m' ρ' hpre hagree
  refine ⟨fun c => Cert.KernelIdeal.Result.returned m c, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact Cert.Agree.result_eq m m' c (hpre c) h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
